-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x128 .f32) (main_arg8 : FVec F S64 .f32) (main_arg9 : FVec F S64x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S64x128 .f32) (main_arg8 : FVec F S64 .f32) (main_arg9 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S64x128 .f32) (main_arg8 : FVec F S64 .f32) (main_arg9 : FVec F S64x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S16384x128 : Shape := ⟨2, ![16384, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S16384x64 : Shape := ⟨2, ![16384, 64]⟩
abbrev S8192x128 : Shape := ⟨2, ![8192, 128]⟩
abbrev S8192x64 : Shape := ⟨2, ![8192, 64]⟩
abbrev S1x128 : Shape := ⟨2, ![1, 128]⟩
abbrev S1x64 : Shape := ⟨2, ![1, 64]⟩

abbrev nBuf : Space → Nat
  | .hbm => 11
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S16384x64, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S64x128, .f32⟩
  | .local _ .vmem, ⟨9, _⟩ => ⟨S64, .f32⟩
  | .local _ .vmem, ⟨10, _⟩ => ⟨S64x128, .f32⟩
  | .local _ .vmem, ⟨11, _⟩ => ⟨S8192x64, .f32⟩
  | .local _ .vmem, ⟨12, _⟩ => ⟨S8192x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8192x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  dot_S8192x128_S128x128_S8192x128_1_1_0_0_n_n_wf : DotDims.WF S8192x128 S128x128 S8192x128 [1] [1] [0] [0] [] []
  dot_S8192x128_S64x128_S8192x64_1_1_0_0_n_n_wf : DotDims.WF S8192x128 S64x128 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S16384x128.size a
  hwx0_0 : ∀ i : grid0.Coords, EltTy.bits .f32 = 32 ∨ (Rect.block (s := S16384x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x64.size a ≤ S16384x64.size a
  hwx0_10 : ∀ i : grid0.Coords, EltTy.bits .f32 = 32 ∨ (Rect.block (s := S16384x64) S8192x64.size (cc0_transform_10 i) (hinb0_10 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S8192x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S16384x448 : Shape := ⟨2, ![16384, 448]⟩
abbrev S128x1 : Shape := ⟨2, ![128, 1]⟩
abbrev S1 : Shape := ⟨1, ![1]⟩
abbrev S1x1 : Shape := ⟨2, ![1, 1]⟩
abbrev S1x128 : Shape := ⟨2, ![1, 128]⟩
abbrev S128x64 : Shape := ⟨2, ![128, 64]⟩
abbrev S16384x64 : Shape := ⟨2, ![16384, 64]⟩
abbrev S1x64 : Shape := ⟨2, ![1, 64]⟩
abbrev S64x1 : Shape := ⟨2, ![64, 1]⟩

abbrev nBuf : Space → Nat
  | .hbm => 180
  | .vmem => 0
  | .smem => 0
  | _ => 0

abbrev hbmTy0_0 (i : Nat) : BufTy := match i % 128 with
  | 0 => ⟨S16384x128, .f32⟩
  | 1 => ⟨S128x128, .f32⟩
  | 2 => ⟨S128, .f32⟩
  | 3 => ⟨S128x128, .f32⟩
  | 4 => ⟨S128x128, .f32⟩
  | 5 => ⟨S128, .f32⟩
  | 6 => ⟨S128x128, .f32⟩
  | 7 => ⟨S64x128, .f32⟩
  | 8 => ⟨S64, .f32⟩
  | 9 => ⟨S64x128, .f32⟩
  | 10 => ⟨S_, .f32⟩
  | 11 => ⟨S16384x448, .f32⟩
  | 12 => ⟨S128, .i32⟩
  | 13 => ⟨S128, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i32⟩
  | 21 => ⟨S64, .i32⟩
  | 22 => ⟨S_, .i32⟩
  | 23 => ⟨S64, .i32⟩
  | 24 => ⟨S64, .i32⟩
  | 25 => ⟨S_, .i32⟩
  | 26 => ⟨S128, .i32⟩
  | 27 => ⟨S128, .i1⟩
  | 28 => ⟨S_, .i32⟩
  | 29 => ⟨S128, .i32⟩
  | 30 => ⟨S128, .i32⟩
  | 31 => ⟨S128, .i32⟩
  | 32 => ⟨S128x1, .i32⟩
  | 33 => ⟨S16384x448, .f32⟩
  | 34 => ⟨S_, .i32⟩
  | 35 => ⟨S128, .i32⟩
  | 36 => ⟨S128, .i1⟩
  | 37 => ⟨S_, .i32⟩
  | 38 => ⟨S128, .i32⟩
  | 39 => ⟨S128, .i32⟩
  | 40 => ⟨S128, .i32⟩
  | 41 => ⟨S128x1, .i32⟩
  | 42 => ⟨S1, .i32⟩
  | 43 => ⟨S_, .i32⟩
  | 44 => ⟨S128x1, .i32⟩
  | 45 => ⟨S128x1, .i1⟩
  | 46 => ⟨S1x1, .i32⟩
  | 47 => ⟨S128x1, .i32⟩
  | 48 => ⟨S128x1, .i1⟩
  | 49 => ⟨S128x1, .i1⟩
  | 50 => ⟨S_, .i1⟩
  | 51 => ⟨S128, .i1⟩
  | 52 => ⟨S16384x128, .f32⟩
  | 53 => ⟨S16384x128, .i1⟩
  | 54 => ⟨S_, .f32⟩
  | 55 => ⟨S16384x128, .f32⟩
  | 56 => ⟨S16384x128, .f32⟩
  | 57 => ⟨S128x128, .f32⟩
  | 58 => ⟨S128x128, .f32⟩
  | 59 => ⟨S16384x128, .f32⟩
  | 60 => ⟨S1x128, .f32⟩
  | 61 => ⟨S16384x128, .f32⟩
  | 62 => ⟨S16384x128, .f32⟩
  | 63 => ⟨S_, .f32⟩
  | 64 => ⟨S16384x128, .f32⟩
  | 65 => ⟨S16384x128, .f32⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S16384x448, .f32⟩
  | 75 => ⟨S_, .i32⟩
  | 76 => ⟨S128, .i32⟩
  | 77 => ⟨S128, .i1⟩
  | 78 => ⟨S_, .i32⟩
  | 79 => ⟨S128, .i32⟩
  | 80 => ⟨S128, .i32⟩
  | 81 => ⟨S128, .i32⟩
  | 82 => ⟨S128x1, .i32⟩
  | 83 => ⟨S1, .i32⟩
  | 84 => ⟨S_, .i32⟩
  | 85 => ⟨S128x1, .i32⟩
  | 86 => ⟨S128x1, .i1⟩
  | 87 => ⟨S1x1, .i32⟩
  | 88 => ⟨S128x1, .i32⟩
  | 89 => ⟨S128x1, .i1⟩
  | 90 => ⟨S128x1, .i1⟩
  | 91 => ⟨S_, .i1⟩
  | 92 => ⟨S128, .i1⟩
  | 93 => ⟨S16384x128, .f32⟩
  | 94 => ⟨S16384x128, .i1⟩
  | 95 => ⟨S_, .f32⟩
  | 96 => ⟨S16384x128, .f32⟩
  | 97 => ⟨S16384x128, .f32⟩
  | 98 => ⟨S128x128, .f32⟩
  | 99 => ⟨S128x128, .f32⟩
  | 100 => ⟨S16384x128, .f32⟩
  | 101 => ⟨S1x128, .f32⟩
  | 102 => ⟨S16384x128, .f32⟩
  | 103 => ⟨S16384x128, .f32⟩
  | 104 => ⟨S_, .f32⟩
  | 105 => ⟨S16384x128, .f32⟩
  | 106 => ⟨S16384x128, .f32⟩
  | 107 => ⟨S_, .i32⟩
  | 108 => ⟨S128, .i32⟩
  | 109 => ⟨S128, .i1⟩
  | 110 => ⟨S_, .i32⟩
  | 111 => ⟨S128, .i32⟩
  | 112 => ⟨S128, .i32⟩
  | 113 => ⟨S128, .i32⟩
  | 114 => ⟨S128x1, .i32⟩
  | 115 => ⟨S16384x448, .f32⟩
  | 116 => ⟨S_, .i32⟩
  | 117 => ⟨S128, .i32⟩
  | 118 => ⟨S128, .i1⟩
  | 119 => ⟨S_, .i32⟩
  | 120 => ⟨S128, .i32⟩
  | 121 => ⟨S128, .i32⟩
  | 122 => ⟨S128, .i32⟩
  | 123 => ⟨S128x1, .i32⟩
  | 124 => ⟨S1, .i32⟩
  | 125 => ⟨S_, .i32⟩
  | 126 => ⟨S128x1, .i32⟩
  | 127 => ⟨S128x1, .i1⟩
  | _ => ⟨S16384x128, .f32⟩

abbrev hbmTy0_1 (i : Nat) : BufTy := match i % 128 with
  | 0 => ⟨S1x1, .i32⟩
  | 1 => ⟨S128x1, .i32⟩
  | 2 => ⟨S128x1, .i1⟩
  | 3 => ⟨S128x1, .i1⟩
  | 4 => ⟨S_, .i1⟩
  | 5 => ⟨S128, .i1⟩
  | 6 => ⟨S16384x128, .f32⟩
  | 7 => ⟨S16384x128, .i1⟩
  | 8 => ⟨S_, .f32⟩
  | 9 => ⟨S16384x128, .f32⟩
  | 10 => ⟨S16384x128, .f32⟩
  | 11 => ⟨S64x128, .f32⟩
  | 12 => ⟨S128x64, .f32⟩
  | 13 => ⟨S16384x64, .f32⟩
  | 14 => ⟨S1x64, .f32⟩
  | 15 => ⟨S16384x64, .f32⟩
  | 16 => ⟨S16384x64, .f32⟩
  | 17 => ⟨S_, .f32⟩
  | 18 => ⟨S16384x64, .f32⟩
  | 19 => ⟨S16384x64, .f32⟩
  | 20 => ⟨S_, .i32⟩
  | 21 => ⟨S64, .i32⟩
  | 22 => ⟨S64, .i1⟩
  | 23 => ⟨S_, .i32⟩
  | 24 => ⟨S64, .i32⟩
  | 25 => ⟨S64, .i32⟩
  | 26 => ⟨S64, .i32⟩
  | 27 => ⟨S64x1, .i32⟩
  | 28 => ⟨S16384x448, .f32⟩
  | 29 => ⟨S_, .i32⟩
  | 30 => ⟨S64, .i32⟩
  | 31 => ⟨S64, .i1⟩
  | 32 => ⟨S_, .i32⟩
  | 33 => ⟨S64, .i32⟩
  | 34 => ⟨S64, .i32⟩
  | 35 => ⟨S64, .i32⟩
  | 36 => ⟨S64x1, .i32⟩
  | 37 => ⟨S1, .i32⟩
  | 38 => ⟨S_, .i32⟩
  | 39 => ⟨S64x1, .i32⟩
  | 40 => ⟨S64x1, .i1⟩
  | 41 => ⟨S1x1, .i32⟩
  | 42 => ⟨S64x1, .i32⟩
  | 43 => ⟨S64x1, .i1⟩
  | 44 => ⟨S64x1, .i1⟩
  | 45 => ⟨S_, .i1⟩
  | 46 => ⟨S64, .i1⟩
  | 47 => ⟨S16384x64, .f32⟩
  | 48 => ⟨S16384x64, .i1⟩
  | 49 => ⟨S_, .f32⟩
  | 50 => ⟨S16384x64, .f32⟩
  | 51 => ⟨S16384x64, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_cst : Ref sig .tc := ⟨.hbm, 63, rfl⟩
abbrev main_call1_v0 : Ref sig .tc := ⟨.hbm, 64, rfl⟩
abbrev main_v25 : Ref sig .tc := ⟨.hbm, 65, rfl⟩
abbrev main_c_4 : Ref sig .tc := ⟨.hbm, 66, rfl⟩
abbrev main_v26 : Ref sig .tc := ⟨.hbm, 67, rfl⟩
abbrev main_v27 : Ref sig .tc := ⟨.hbm, 68, rfl⟩
abbrev main_c_5 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call3_cst : Ref sig .tc := ⟨.hbm, 104, rfl⟩
abbrev main_call3_v0 : Ref sig .tc := ⟨.hbm, 105, rfl⟩
abbrev main_v40 : Ref sig .tc := ⟨.hbm, 106, rfl⟩
abbrev main_c_6 : Ref sig .tc := ⟨.hbm, 107, rfl⟩
abbrev main_v41 : Ref sig .tc := ⟨.hbm, 108, rfl⟩
abbrev main_v42 : Ref sig .tc := ⟨.hbm, 109, rfl⟩
abbrev main_c_7 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_call5_cst : Ref sig .tc := ⟨.hbm, 145, rfl⟩
abbrev main_call5_v0 : Ref sig .tc := ⟨.hbm, 146, rfl⟩
abbrev main_v55 : Ref sig .tc := ⟨.hbm, 147, rfl⟩
abbrev main_c_8 : Ref sig .tc := ⟨.hbm, 148, rfl⟩
abbrev main_v56 : Ref sig .tc := ⟨.hbm, 149, rfl⟩
abbrev main_v57 : Ref sig .tc := ⟨.hbm, 150, rfl⟩
abbrev main_c_9 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_v14 : Ref sig .tc := ⟨.hbm, 176, rfl⟩
abbrev main_call6_cst : Ref sig .tc := ⟨.hbm, 177, rfl⟩
abbrev main_call6_v15 : Ref sig .tc := ⟨.hbm, 178, rfl⟩
abbrev main_v63 : Ref sig .tc := ⟨.hbm, 179, rfl⟩

abbrev nD : Nat := 1
abbrev τ : Topo := Topo.v7x

variable {F : FTy → Type} [FloatOps F]

class Facts₀ : Prop where
  bcast_S_S16384x448 : S_.BroadcastsInDim S16384x448 (![] : Fin 0 → Fin S16384x448.rank)
  bcast_S_S128 : S_.BroadcastsInDim S128 (![] : Fin 0 → Fin S128.rank)
  bcast_S_S64 : S_.BroadcastsInDim S64 (![] : Fin 0 → Fin S64.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S16384x128_1 : S128.BroadcastsInDim S16384x128 (![1] : Fin 1 → Fin S16384x128.rank)
  bcast_S_S16384x128 : S_.BroadcastsInDim S16384x128 (![] : Fin 0 → Fin S16384x128.rank)
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S64_S64x1_0 : S64.BroadcastsInDim S64x1 (![0] : Fin 1 → Fin S64x1.rank)
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S64_d1 : S64x1.ReducesTo [1] S64
  bcast_S64_S16384x64_1 : S64.BroadcastsInDim S16384x64 (![1] : Fin 1 → Fin S16384x64.rank)
  scatter_S16384x448_S128x1_S16384x128_0_1_1_1_wf : ScatterDims.WF S16384x448 S128x1 S16384x128 [0] [1] [1] 1
  gather_S16384x448_S128x1_S16384x128_0_1_n_n_1_1_163841_wf : GatherDims.WF S16384x448 S128x1 S16384x128 [0] [1] [] [1] [] 1 ![16384, 1]
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  scatter_S16384x448_S64x1_S16384x64_0_1_1_1_wf : ScatterDims.WF S16384x448 S64x1 S16384x64 [0] [1] [1] 1
  gather_S16384x448_S64x1_S16384x64_0_1_n_n_1_1_163841_wf : GatherDims.WF S16384x448 S64x1 S16384x64 [0] [1] [] [1] [] 1 ![16384, 1]

variable [Facts₀]

def scatter_S16384x448_S128x1_S16384x128_0_1_1_1 : ScatterDims S16384x448 S128x1 S16384x128 where
  updateWindowDims := [0]
  insertedWindowDims := [1]
  scatterDimsToOperandDims := [1]
  indexVectorDim := 1
  wf := scatter_S16384x448_S128x1_S16384x128_0_1_1_1_wf
def gather_S16384x448_S128x1_S16384x128_0_1_n_n_1_1_163841 : GatherDims S16384x448 S128x1 S16384x128 where
  offsetDims := [0]
  collapsedSliceDims := [1]
  operandBatchingDims := []
  startIndicesBatchingDims := []
  startIndexMap := [1]
  indexVectorDim := 1
  sliceSizes := ![16384, 1]
  wf := gather_S16384x448_S128x1_S16384x128_0_1_n_n_1_1_163841_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def scatter_S16384x448_S64x1_S16384x64_0_1_1_1 : ScatterDims S16384x448 S64x1 S16384x64 where
  updateWindowDims := [0]
  insertedWindowDims := [1]
  scatterDimsToOperandDims := [1]
  indexVectorDim := 1
  wf := scatter_S16384x448_S64x1_S16384x64_0_1_1_1_wf
def gather_S16384x448_S64x1_S16384x64_0_1_n_n_1_1_163841 : GatherDims S16384x448 S64x1 S16384x64 where
  offsetDims := [0]
  collapsedSliceDims := [1]
  operandBatchingDims := []
  startIndicesBatchingDims := []
  startIndexMap := [1]
  indexVectorDim := 1
  sliceSizes := ![16384, 1]
  wf := gather_S16384x448_S64x1_S16384x64_0_1_n_n_1_1_163841_wf

class Facts : Prop extends Facts₀ where

variable [Facts]
-- ==== Proof.MaskedMlp.lean ====
/-
  The function both programs compute: three masked dense layers with a ramp, one row at a time.

  A row `x` of 128 inputs goes through
      h¹ⱼ = max (∑ₖ xₖ · (W¹ⱼₖ · M¹ⱼₖ) + b¹ⱼ) 0        (128 units)
      h²ⱼ = max (∑ₖ h¹ₖ · (W²ⱼₖ · M²ⱼₖ) + b²ⱼ) 0        (128 units)
      oⱼ  = max (∑ₖ h²ₖ · (W³ⱼₖ · M³ⱼₖ) + b³ⱼ) 0        (64 units)
  over the extended reals. Row `r` of the result depends on row `r` of the inputs only, so the same
  definition serves the whole array of 16384 rows and a block of 8192 of them.
-/
import Idealize.ShloMosaic.PureOps.Ideal
import Idealize.ShloMosaic.Lib.ValueIdx

noncomputable section

namespace Cert.MaskedMlp

open Idealize.ShloMosaic Idealize.ShloMosaic.ValueIdx

/-- One unit: the ramp of the masked weighted sum of a row plus the bias. -/
def unit (x w m : Fin 128 → EReal) (b : EReal) : EReal :=
  max ((∑ k : Fin 128, x k * (w k * m k)) + b) 0

/-- A layer of `n` units applied to one row: unit `j` uses row `j` of the weights and of the mask. -/
def layer {n : Nat} (x : Fin 128 → EReal) (W M : (⟨2, ![n, 128]⟩ : Shape).Idx → EReal)
    (b : (⟨1, ![n]⟩ : Shape).Idx → EReal) : Fin n → EReal :=
  fun j => unit x (fun k => W (ix2 j k)) (fun k => M (ix2 j k)) (b (ix1 j))

/-- The three layers applied to one row. -/
def row (x : Fin 128 → EReal)
    (W1 M1 : (⟨2, ![128, 128]⟩ : Shape).Idx → EReal) (b1 : (⟨1, ![128]⟩ : Shape).Idx → EReal)
    (W2 M2 : (⟨2, ![128, 128]⟩ : Shape).Idx → EReal) (b2 : (⟨1, ![128]⟩ : Shape).Idx → EReal)
    (W3 M3 : (⟨2, ![64, 128]⟩ : Shape).Idx → EReal) (b3 : (⟨1, ![64]⟩ : Shape).Idx → EReal) : Fin 64 → EReal :=
  layer (layer (layer x W1 M1 b1) W2 M2 b2) W3 M3 b3

/-- The three layers applied to every row of an array of `R` rows. -/
def rows {R : Nat} (X : (⟨2, ![R, 128]⟩ : Shape).Idx → EReal)
    (W1 M1 : (⟨2, ![128, 128]⟩ : Shape).Idx → EReal) (b1 : (⟨1, ![128]⟩ : Shape).Idx → EReal)
    (W2 M2 : (⟨2, ![128, 128]⟩ : Shape).Idx → EReal) (b2 : (⟨1, ![128]⟩ : Shape).Idx → EReal)
    (W3 M3 : (⟨2, ![64, 128]⟩ : Shape).Idx → EReal) (b3 : (⟨1, ![64]⟩ : Shape).Idx → EReal) :
    (⟨2, ![R, 64]⟩ : Shape).Idx → EReal :=
  fun i => row (fun k => X (ix2 (i 0 : Fin R) k)) W1 M1 b1 W2 M2 b2 W3 M3 b3 (i 1 : Fin 64)

theorem rows_apply {R : Nat} (X : (⟨2, ![R, 128]⟩ : Shape).Idx → EReal)
    (W1 M1 : (⟨2, ![128, 128]⟩ : Shape).Idx → EReal) (b1 : (⟨1, ![128]⟩ : Shape).Idx → EReal)
    (W2 M2 : (⟨2, ![128, 128]⟩ : Shape).Idx → EReal) (b2 : (⟨1, ![128]⟩ : Shape).Idx → EReal)
    (W3 M3 : (⟨2, ![64, 128]⟩ : Shape).Idx → EReal) (b3 : (⟨1, ![64]⟩ : Shape).Idx → EReal) (r : Fin R) (q : Fin 64) :
    rows X W1 M1 b1 W2 M2 b2 W3 M3 b3 (ix2 r q) = row (fun k => X (ix2 r k)) W1 M1 b1 W2 M2 b2 W3 M3 b3 q := rfl

end Cert.MaskedMlp

end
-- ==== Proof.KernelRow.lean ====
/-
  The kernel body's stored value, read at one entry.

  At a grid point the body loads a block of 8192 input rows and the whole weights, masks and biases,
  and stores `max (h² · (W³ ∘ M³)ᵀ + b³) 0` with `h¹`, `h²` the two hidden layers. Its casts to the
  16-bit format are the identity on the extended reals, each of its three matrix products into a zero
  accumulator is the plain sum over the one contracted axis, and a bias is a row laid along every row
  of the block. So the entry at row `p`, unit `q` is the three layers applied to row `p` of the block.
-/
import proofs.«107552_g58299886076360_cont_9to1_m_691_22_alg».proof.Proof.Gen.KernelIdeal.Skeleton
import proofs.«107552_g58299886076360_cont_9to1_m_691_22_alg».proof.Proof.MaskedMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## The operand indices of the two matrix products -/

/-- The 128-unit product contracts axis 1 of both operands: the left operand is read at (row, k). -/
theorem lhs128 (p : Fin 8192) (j : Fin 128) (k : Fin 128) :
    dot_S8192x128_S128x128_S8192x128_1_1_0_0_n_n.lhsIdx (ix2 p j)
      ((contrEquiv1 dot_S8192x128_S128x128_S8192x128_1_1_0_0_n_n 128 rfl rfl).symm k) = ix2 p k := by
  have hk := contrEquiv1_symm_val dot_S8192x128_S128x128_S8192x128_1_1_0_0_n_n 128 rfl rfl k
  refine funext fun a => Fin.ext ?_
  match a with
  | ⟨0, _⟩ =>
    show (dot_S8192x128_S128x128_S8192x128_1_1_0_0_n_n.lhsIdx _ _ 0).val = p.val
    unfold DotDims.lhsIdx
    rw [dif_neg (show ¬(0 : Fin S8192x128.rank) ∈ dot_S8192x128_S128x128_S8192x128_1_1_0_0_n_n.lhsBatch by decide),
      dif_pos (show (0 : Fin S8192x128.rank) ∈ dot_S8192x128_S128x128_S8192x128_1_1_0_0_n_n.lhsNonContracting by decide)]
    rfl
  | ⟨1, _⟩ =>
    exact (dot_S8192x128_S128x128_S8192x128_1_1_0_0_n_n.lhsIdx_val_of_single rfl _ _).trans hk

/-- and the right operand at (unit, k). -/
theorem rhs128 (p : Fin 8192) (j : Fin 128) (k : Fin 128) :
    dot_S8192x128_S128x128_S8192x128_1_1_0_0_n_n.rhsIdx (ix2 p j)
      ((contrEquiv1 dot_S8192x128_S128x128_S8192x128_1_1_0_0_n_n 128 rfl rfl).symm k) = ix2 j k := by
  have hk := contrEquiv1_symm_val dot_S8192x128_S128x128_S8192x128_1_1_0_0_n_n 128 rfl rfl k
  refine funext fun a => Fin.ext ?_
  match a with
  | ⟨0, _⟩ =>
    show (dot_S8192x128_S128x128_S8192x128_1_1_0_0_n_n.rhsIdx _ _ 0).val = j.val
    unfold DotDims.rhsIdx
    rw [dif_neg (show ¬(0 : Fin S128x128.rank) ∈ dot_S8192x128_S128x128_S8192x128_1_1_0_0_n_n.rhsBatch by decide),
      dif_pos (show (0 : Fin S128x128.rank) ∈ dot_S8192x128_S128x128_S8192x128_1_1_0_0_n_n.rhsNonContracting by decide)]
    rfl
  | ⟨1, _⟩ =>
    exact (dot_S8192x128_S128x128_S8192x128_1_1_0_0_n_n.rhsIdx_val_of_single rfl _ _).trans hk

/-- A product of a block with masked weights into a zero accumulator, at (row, unit): the sum over the 128 inputs. -/
theorem matmul128_apply {φ₁ φ₂ : FTy} (h : FVec Ideal S8192x128 φ₁) (w : FVec Ideal S128x128 φ₂) (p : Fin 8192) (j : Fin 128) :
    matmul dot_S8192x128_S128x128_S8192x128_1_1_0_0_n_n none h w (constant S8192x128 .f32 0x00000000#32) (ix2 p j)
      = ∑ k : Fin 128, h (ix2 p k) * w (ix2 j k) := by
  refine (Ideal.matmul_constant_zero_apply dot_S8192x128_S128x128_S8192x128_1_1_0_0_n_n none h w (ix2 p j)).trans ?_
  rw [← Equiv.sum_comp (contrEquiv1 dot_S8192x128_S128x128_S8192x128_1_1_0_0_n_n 128 rfl rfl).symm]
  refine Finset.sum_congr rfl fun k _ => ?_
  rw [lhs128, rhs128]

/-! ## The same for the 64-unit product -/

theorem lhs64 (p : Fin 8192) (j : Fin 64) (k : Fin 128) :
    dot_S8192x128_S64x128_S8192x64_1_1_0_0_n_n.lhsIdx (ix2 p j) ((contrEquiv1 dot_S8192x128_S64x128_S8192x64_1_1_0_0_n_n 128 rfl rfl).symm k) = ix2 p k := by
  have hk := contrEquiv1_symm_val dot_S8192x128_S64x128_S8192x64_1_1_0_0_n_n 128 rfl rfl k
  refine funext fun a => Fin.ext ?_
  match a with
  | ⟨0, _⟩ =>
    show (dot_S8192x128_S64x128_S8192x64_1_1_0_0_n_n.lhsIdx _ _ 0).val = p.val
    unfold DotDims.lhsIdx
    rw [dif_neg (show ¬(0 : Fin S8192x128.rank) ∈ dot_S8192x128_S64x128_S8192x64_1_1_0_0_n_n.lhsBatch by decide),
      dif_pos (show (0 : Fin S8192x128.rank) ∈ dot_S8192x128_S64x128_S8192x64_1_1_0_0_n_n.lhsNonContracting by decide)]
    rfl
  | ⟨1, _⟩ =>
    exact (dot_S8192x128_S64x128_S8192x64_1_1_0_0_n_n.lhsIdx_val_of_single rfl _ _).trans hk

theorem rhs64 (p : Fin 8192) (j : Fin 64) (k : Fin 128) :
    dot_S8192x128_S64x128_S8192x64_1_1_0_0_n_n.rhsIdx (ix2 p j) ((contrEquiv1 dot_S8192x128_S64x128_S8192x64_1_1_0_0_n_n 128 rfl rfl).symm k) = ix2 j k := by
  have hk := contrEquiv1_symm_val dot_S8192x128_S64x128_S8192x64_1_1_0_0_n_n 128 rfl rfl k
  refine funext fun a => Fin.ext ?_
  match a with
  | ⟨0, _⟩ =>
    show (dot_S8192x128_S64x128_S8192x64_1_1_0_0_n_n.rhsIdx _ _ 0).val = j.val
    unfold DotDims.rhsIdx
    rw [dif_neg (show ¬(0 : Fin S64x128.rank) ∈ dot_S8192x128_S64x128_S8192x64_1_1_0_0_n_n.rhsBatch by decide),
      dif_pos (show (0 : Fin S64x128.rank) ∈ dot_S8192x128_S64x128_S8192x64_1_1_0_0_n_n.rhsNonContracting by decide)]
    rfl
  | ⟨1, _⟩ =>
    exact (dot_S8192x128_S64x128_S8192x64_1_1_0_0_n_n.rhsIdx_val_of_single rfl _ _).trans hk

theorem matmul64_apply {φ₁ φ₂ : FTy} (h : FVec Ideal S8192x128 φ₁) (w : FVec Ideal S64x128 φ₂) (p : Fin 8192) (j : Fin 64) :
    matmul dot_S8192x128_S64x128_S8192x64_1_1_0_0_n_n none h w (constant S8192x64 .f32 0x00000000#32) (ix2 p j)
      = ∑ k : Fin 128, h (ix2 p k) * w (ix2 j k) := by
  refine (Ideal.matmul_constant_zero_apply dot_S8192x128_S64x128_S8192x64_1_1_0_0_n_n none h w (ix2 p j)).trans ?_
  rw [← Equiv.sum_comp (contrEquiv1 dot_S8192x128_S64x128_S8192x64_1_1_0_0_n_n 128 rfl rfl).symm]
  refine Finset.sum_congr rfl fun k _ => ?_
  rw [lhs64, rhs64]

/-! ## A bias laid along every row of the block -/

theorem biasRow128 {φ : FTy} (b : FVec Ideal S128 φ) (p : Fin 8192) (j : Fin 128) :
    broadcastTo S8192x128 (shapeCast S1x128 b shapeCasts_S128_S1x128) broadcasts_S1x128_S8192x128 (ix2 p j) = b (ix1 j) :=
  (broadcastTo_1b_ab_apply _ _ p j).trans (shapeCast_a_1a_apply b _ 0 j)

theorem biasRow64 {φ : FTy} (b : FVec Ideal S64 φ) (p : Fin 8192) (j : Fin 64) :
    broadcastTo S8192x64 (shapeCast S1x64 b shapeCasts_S64_S1x64) broadcasts_S1x64_S8192x64 (ix2 p j) = b (ix1 j) :=
  (broadcastTo_1b_ab_apply _ _ p j).trans (shapeCast_a_1a_apply b _ 0 j)

/-- The zero of the 16-bit format is the real zero. -/
theorem zero_bf16 : (Scalar.ofBits .bf16 0x0000#16 : Ideal .bf16) = 0 := by
  show Ideal.ofBits .bf16 0x0000#16 = 0
  simp [Ideal.ofBits, Ideal.ieee]

theorem zero_f32 : (Scalar.ofBits .f32 0x00000000#32 : Ideal .f32) = 0 := Ideal.ofBits_zero_f32

/-! ## The layers of the body -/

/-- A hidden layer as the body computes it on a block. -/
def hiddenBlock {φ₁ : FTy} (h : FVec Ideal S8192x128 φ₁) (W M : Vec Ideal S128x128 .f32) (b : Vec Ideal S128 .f32) :
    FVec Ideal S8192x128 .bf16 :=
  maximumf
    (addf
      (truncf .bf16 (matmul dot_S8192x128_S128x128_S8192x128_1_1_0_0_n_n none h (truncf .bf16 (mulf W M) bitsLt_bf16_f32)
        (constant S8192x128 .f32 0x00000000#32)) bitsLt_bf16_f32)
      (broadcastTo S8192x128 (shapeCast S1x128 (truncf .bf16 b bitsLt_bf16_f32) shapeCasts_S128_S1x128)
        broadcasts_S1x128_S8192x128))
    (broadcast S8192x128 (Scalar.ofBits .bf16 0x0000#16))

/-- The output layer as the body computes it on a block. -/
def outBlock {φ₁ : FTy} (h : FVec Ideal S8192x128 φ₁) (W M : Vec Ideal S64x128 .f32) (b : Vec Ideal S64 .f32) :
    FVec Ideal S8192x64 .f32 :=
  maximumf
    (addf
      (matmul dot_S8192x128_S64x128_S8192x64_1_1_0_0_n_n none h (truncf .bf16 (mulf W M) bitsLt_bf16_f32) (constant S8192x64 .f32 0x00000000#32))
      (broadcastTo S8192x64 (shapeCast S1x64 b shapeCasts_S64_S1x64) broadcasts_S1x64_S8192x64))
    (broadcast S8192x64 (Scalar.ofBits .f32 0x00000000#32))

/-- The body's stored value is the output layer of the second hidden layer of the first, of the loaded block. -/
theorem payload_eq (v0 : Vec Ideal S8192x128 .f32) (v2 v3 : Vec Ideal S128x128 .f32) (v6 : Vec Ideal S128 .f32)
    (v15 v16 : Vec Ideal S128x128 .f32) (v19 : Vec Ideal S128 .f32) (v28 v29 : Vec Ideal S64x128 .f32) (v33 : Vec Ideal S64 .f32) :
    k0_pay1 (k0_pay2 v0 v2 v3 v6 v15 v16 v19 v28 v29 v33)
      = outBlock (hiddenBlock (hiddenBlock (truncf .bf16 v0 bitsLt_bf16_f32 : FVec Ideal S8192x128 .bf16) v2 v3 v6) v15 v16 v19) v28 v29 v33 := rfl

/-- A hidden layer's entry at (row, unit) is that unit applied to the row of the layer's input. -/
theorem hiddenBlock_apply {φ₁ : FTy} (h : FVec Ideal S8192x128 φ₁) (W M : Vec Ideal S128x128 .f32) (b : Vec Ideal S128 .f32)
    (p : Fin 8192) (j : Fin 128) :
    hiddenBlock h W M b (ix2 p j) = MaskedMlp.layer (fun k => h (ix2 p k)) W M b j := by
  unfold hiddenBlock
  rw [maximumf_apply, addf_apply, truncf_apply, matmul128_apply, biasRow128 (φ := .bf16), broadcast_apply, zero_bf16]
  rfl

theorem outBlock_apply {φ₁ : FTy} (h : FVec Ideal S8192x128 φ₁) (W M : Vec Ideal S64x128 .f32) (b : Vec Ideal S64 .f32)
    (p : Fin 8192) (j : Fin 64) :
    outBlock h W M b (ix2 p j) = MaskedMlp.layer (fun k => h (ix2 p k)) W M b j := by
  unfold outBlock
  rw [maximumf_apply, addf_apply, matmul64_apply, biasRow64 (φ := .f32), broadcast_apply, zero_f32]
  rfl

/-- The body's stored value at (row, unit): the three layers applied to that row of the loaded block. -/
theorem payload_apply (v0 : Vec Ideal S8192x128 .f32) (v2 v3 : Vec Ideal S128x128 .f32) (v6 : Vec Ideal S128 .f32)
    (v15 v16 : Vec Ideal S128x128 .f32) (v19 : Vec Ideal S128 .f32) (v28 v29 : Vec Ideal S64x128 .f32) (v33 : Vec Ideal S64 .f32)
    (p : Fin 8192) (q : Fin 64) :
    k0_pay1 (k0_pay2 v0 v2 v3 v6 v15 v16 v19 v28 v29 v33) (ix2 p q)
      = MaskedMlp.row (fun k => v0 (ix2 p k)) v2 v3 v6 v15 v16 v19 v28 v29 v33 q := by
  rw [payload_eq, outBlock_apply]
  have e2 : (fun k => hiddenBlock (hiddenBlock (truncf .bf16 v0 bitsLt_bf16_f32 : FVec Ideal S8192x128 .bf16) v2 v3 v6) v15 v16 v19 (ix2 p k))
      = MaskedMlp.layer (MaskedMlp.layer (fun k => v0 (ix2 p k)) v2 v3 v6) v15 v16 v19 := by
    funext j
    rw [hiddenBlock_apply]
    have e1 : (fun k => hiddenBlock (truncf .bf16 v0 bitsLt_bf16_f32 : FVec Ideal S8192x128 .bf16) v2 v3 v6 (ix2 p k))
        = MaskedMlp.layer (fun k => v0 (ix2 p k)) v2 v3 v6 := by
      funext i
      rw [hiddenBlock_apply]
      rfl
    rw [e1]
  rw [e2]
  rfl

end Cert.KernelIdeal.RowValue

end
-- ==== Proof.KernelArray.lean ====
/-
  The kernel's result array as one function of the argument arrays.

  The grid has two points; point `t` works on rows `8192·t … 8192·t + 8191` of the inputs and writes the
  same rows of the result, while the weights, masks and biases are whole-array blocks at every point. What
  a point writes back is therefore the three layers applied to those rows, and the two blocks tile the
  result: after the run the result array is the three layers applied to every row of the inputs.
-/
import proofs.«107552_g58299886076360_cont_9to1_m_691_22_alg».proof.Proof.Gen.KernelIdeal.Value
import proofs.«107552_g58299886076360_cont_9to1_m_691_22_alg».proof.Proof.KernelRow

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The three layers applied to every row of the inputs, as the region finds the argument arrays. -/
abbrev G (c : Dev nD) : S16384x64.Idx → Elt Ideal .f32 :=
  MaskedMlp.rows (V m c main_arg0) (V m c main_arg1) (V m c main_arg3) (V m c main_arg2)
    (V m c main_arg4) (V m c main_arg6) (V m c main_arg5) (V m c main_arg7) (V m c main_arg9) (V m c main_arg8)

/-- The index maps over the two grid points: the input rows move with the output rows, every other block
    index is 0, and the output's row-block index is the point's number. -/
theorem idx_facts : ∀ t : Fin cfg0.N,
    win0_0.index t (0 : Fin 2) = win0_10.index t (0 : Fin 2) ∧ win0_0.index t (1 : Fin 2) = 0
    ∧ win0_10.index t (1 : Fin 2) = 0 ∧ win0_10.index t (0 : Fin 2) = t.val
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0 :=
  (by decide +kernel : ∀ t : Fin grid0.N, _)

/-! ## The weights, masks and biases: whole-array blocks at every point -/

theorem iblk1 (c : Dev nD) (t : Fin cfg0.N) : iblk m c 1 t = V m c main_arg1 := by
  have hf := idx_facts t
  funext y
  show V m c main_arg1 (((cfg0.win 1).blk t).view.emb y) = V m c main_arg1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem iblk2 (c : Dev nD) (t : Fin cfg0.N) : iblk m c 2 t = V m c main_arg2 := by
  have hf := idx_facts t
  funext y
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; omega

theorem iblk3 (c : Dev nD) (t : Fin cfg0.N) : iblk m c 3 t = V m c main_arg3 := by
  have hf := idx_facts t
  funext y
  show V m c main_arg3 (((cfg0.win 3).blk t).view.emb y) = V m c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk4 (c : Dev nD) (t : Fin cfg0.N) : iblk m c 4 t = V m c main_arg4 := by
  have hf := idx_facts t
  funext y
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem iblk5 (c : Dev nD) (t : Fin cfg0.N) : iblk m c 5 t = V m c main_arg5 := by
  have hf := idx_facts t
  funext y
  show V m c main_arg5 (((cfg0.win 5).blk t).view.emb y) = V m c main_arg5 y
  refine congrArg _ (funext fun a => Fin.ext ?_)
  match a with
  | ⟨0, _⟩ => show win0_5.index t (0 : Fin 1) * 128 + 1 * (y 0).val = (y 0).val; omega

theorem iblk6 (c : Dev nD) (t : Fin cfg0.N) : iblk m c 6 t = V m c main_arg6 := by
  have hf := idx_facts t
  funext y
  show V m c main_arg6 (((cfg0.win 6).blk t).view.emb y) = V m c main_arg6 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem iblk7 (c : Dev nD) (t : Fin cfg0.N) : iblk m c 7 t = V m c main_arg7 := by
  have hf := idx_facts t
  funext y
  show V m c main_arg7 (((cfg0.win 7).blk t).view.emb y) = V m c main_arg7 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 128 + 1 * (y 1).val = (y 1).val; omega

theorem iblk8 (c : Dev nD) (t : Fin cfg0.N) : iblk m c 8 t = V m c main_arg8 := by
  have hf := idx_facts t
  funext y
  show V m c main_arg8 (((cfg0.win 8).blk t).view.emb y) = V m c main_arg8 y
  refine congrArg _ (funext fun a => Fin.ext ?_)
  match a with
  | ⟨0, _⟩ => show win0_8.index t (0 : Fin 1) * 64 + 1 * (y 0).val = (y 0).val; omega

theorem iblk9 (c : Dev nD) (t : Fin cfg0.N) : iblk m c 9 t = V m c main_arg9 := by
  have hf := idx_facts t
  funext y
  show V m c main_arg9 (((cfg0.win 9).blk t).view.emb y) = V m c main_arg9 y
  refine congrArg _ (funext fun a => Fin.ext ?_)
  match a with
  | ⟨0, _⟩ => show win0_9.index t (0 : Fin 2) * 64 + 1 * (y 0).val = (y 0).val; omega
  | ⟨1, _⟩ => show win0_9.index t (1 : Fin 2) * 128 + 1 * (y 1).val = (y 1).val; omega

/-! ## What a point writes back -/

/-- The three layers at an entry of an array, from the row it reads and the unit's number. -/
theorem rows_eq_of {R : Nat} (X : (⟨2, ![R, 128]⟩ : Shape).Idx → EReal)
    (W1 M1 : (⟨2, ![128, 128]⟩ : Shape).Idx → EReal) (b1 : (⟨1, ![128]⟩ : Shape).Idx → EReal)
    (W2 M2 : (⟨2, ![128, 128]⟩ : Shape).Idx → EReal) (b2 : (⟨1, ![128]⟩ : Shape).Idx → EReal)
    (W3 M3 : (⟨2, ![64, 128]⟩ : Shape).Idx → EReal) (b3 : (⟨1, ![64]⟩ : Shape).Idx → EReal)
    (i : (⟨2, ![R, 64]⟩ : Shape).Idx) (x : Fin 128 → EReal) (q : Fin 64)
    (hx : ∀ k, X (ix2 (i 0 : Fin R) k) = x k) (hq : (i 1 : Fin 64) = q) :
    MaskedMlp.rows X W1 M1 b1 W2 M2 b2 W3 M3 b3 i = MaskedMlp.row x W1 M1 b1 W2 M2 b2 W3 M3 b3 q := by
  have e : (fun k => X (ix2 (i 0 : Fin R) k)) = x := funext hx
  show MaskedMlp.row (fun k => X (ix2 (i 0 : Fin R) k)) W1 M1 b1 W2 M2 b2 W3 M3 b3 (i 1 : Fin 64) = _
  rw [e, hq]

/-- Point `t` writes back block `t` of the three layers applied to every row of the inputs. -/
theorem flushed_eq (c : Dev nD) (t : Fin cfg0.N) :
    (dats m 0 c).flushed 10 t = ((cfg0.win 10).blk t).view.read (Elt Ideal) (G m c) := by
  rw [Value.flushed10]
  unfold out0_10
  rw [View.canon_unit_zero hz2]
  simp only [View.ld_unit_zero (S := S8192x128) hz2, View.ld_unit_zero (S := S128x128) hz2, View.ld_unit_zero (S := S128) hz1,
    View.ld_unit_zero (S := S64x128) hz2, View.ld_unit_zero (S := S64) hz1]
  rw [iblk1, iblk2, iblk3, iblk4, iblk5, iblk6, iblk7, iblk8, iblk9]
  have hf := idx_facts t
  funext j
  obtain ⟨p, q, rfl⟩ : ∃ (p : Fin 8192) (q : Fin 64), j = ix2 p q := ⟨j 0, j 1, eq_ix2 j⟩
  show k0_pay1 (k0_pay2 (iblk m c 0 t) (V m c main_arg1) (V m c main_arg3) (V m c main_arg2) (V m c main_arg4) (V m c main_arg6)
      (V m c main_arg5) (V m c main_arg7) (V m c main_arg9) (V m c main_arg8)) (ix2 p q)
    = G m c (((cfg0.win 10).blk t).view.emb (ix2 p q))
  refine (RowValue.payload_apply _ _ _ _ _ _ _ _ _ _ p q).trans ?_
  refine (rows_eq_of _ _ _ _ _ _ _ _ _ _ (((cfg0.win 10).blk t).view.emb (ix2 p q)) _ q ?_ ?_).symm
  · intro k
    show V m c main_arg0 _ = V m c main_arg0 (((cfg0.win 0).blk t).view.emb (ix2 p k))
    refine congrArg _ (funext fun a => Fin.ext ?_)
    match a with
    | ⟨0, _⟩ => show win0_10.index t (0 : Fin 2) * 8192 + 1 * p.val = win0_0.index t (0 : Fin 2) * 8192 + 1 * p.val; omega
    | ⟨1, _⟩ => show k.val = win0_0.index t (1 : Fin 2) * 128 + 1 * k.val; omega
  · exact Fin.ext (show win0_10.index t (1 : Fin 2) * 64 + 1 * q.val = q.val by omega)

/-! ## The two blocks tile the result -/

theorem mem_blk (t : Fin cfg0.N) (i : S16384x64.Idx) :
    i ∈ ((cfg0.win 10).blk t).view.set ↔ ∀ a : Fin 2, win0_10.index t a * S8192x64.size a ≤ (i a).val
      ∧ (i a).val < win0_10.index t a * S8192x64.size a + S8192x64.size a := by
  show i ∈ ((View.whole main_v0).slice (win0_10.rect t)).set ↔ _
  rw [View.set_slice_whole, Rect.mem_set_unit]
  exact Iff.rfl

/-- Row `r` of the result is in the block of point `r / 8192`. -/
theorem cover (i : S16384x64.Idx) :
    ∃ t : Fin cfg0.N, (cfg0.win 10).flush t = true ∧ i ∈ ((cfg0.win 10).blk t).view.set := by
  have hi0 : (i 0).val < 16384 := (i 0).isLt
  have hi1 : (i 1).val < 64 := (i 1).isLt
  have ht : (i 0).val / 8192 < 2 := by omega
  refine ⟨⟨(i 0).val / 8192, ht⟩, flush0_10 _, ?_⟩
  rw [mem_blk]
  have hf := idx_facts ⟨(i 0).val / 8192, ht⟩
  have e3 : win0_10.index ⟨(i 0).val / 8192, ht⟩ (0 : Fin 2) = (i 0).val / 8192 := hf.2.2.2.1
  have e2 : win0_10.index ⟨(i 0).val / 8192, ht⟩ (1 : Fin 2) = 0 := hf.2.2.1
  intro a
  match a with
  | ⟨0, _⟩ =>
    show win0_10.index ⟨(i 0).val / 8192, ht⟩ (0 : Fin 2) * 8192 ≤ (i 0).val
      ∧ (i 0).val < win0_10.index ⟨(i 0).val / 8192, ht⟩ (0 : Fin 2) * 8192 + 8192
    omega
  | ⟨1, _⟩ =>
    show win0_10.index ⟨(i 0).val / 8192, ht⟩ (1 : Fin 2) * 64 ≤ (i 1).val
      ∧ (i 1).val < win0_10.index ⟨(i 0).val / 8192, ht⟩ (1 : Fin 2) * 64 + 64
    omega

/-- After the run the result array is the three layers applied to every row of the inputs. -/
theorem final (c : Dev nD) : (dats m 0 c).arrAt 10 cfg0.N = G m c :=
  (dats m 0 c).arrAt_eq_of_cover 10 (G m c) (fun t _ => flushed_eq m c t) cover

/-! ## The run -/

/-- Every weakly fair execution of the kernel's program ends with the result array at the three layers of the
    inputs and the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.ArrayValue

end
-- ==== Proof.RefTerm.lean ====
/-
  The reference as pure functions of its argument arrays.

  The reference keeps one buffer `values` of 16384 rows and 448 columns and runs three masked dense
  layers through it: it PUTS an activation into a contiguous range of columns (a scatter that sets
  elements, the column numbers first normalised as jnp normalises a negative index), TAKES that same range
  back (a gather along the columns, guarded by an in-range mask whose other branch is a NaN fill), and
  applies `relu (x · (W ∘ M)ᵀ + b)`. The definitions below name these three steps and the whole result
  as one term of the ten arguments; nothing here proves anything.
-/
import proofs.«107552_g58299886076360_cont_9to1_m_691_22_alg».proof.ReferenceIdeal

noncomputable section

namespace Cert.ReferenceIdeal.RefValue

open Cert.ReferenceIdeal Idealize.ShloMosaic Idealize.ShloMosaic.TcCoe Idealize.SL.Sem

variable {F : FTy → Type} [FloatOps F] [Facts]
open Facts₀ Facts

/-- The buffer of all node activations, 16384 × 448. -/
abbrev Vals (F : FTy → Type) [FloatOps F] := (⟨S16384x448, .f32⟩ : BufTy).Contents (Elt F)
/-- An activation of 128 nodes per row, and one of 64. -/
abbrev Act128 (F : FTy → Type) [FloatOps F] := (⟨S16384x128, .f32⟩ : BufTy).Contents (Elt F)
abbrev Act64 (F : FTy → Type) [FloatOps F] := (⟨S16384x64, .f32⟩ : BufTy).Contents (Elt F)
/-- A vector of 128 column numbers (32-bit words), and one of 64. -/
abbrev Cols128 (F : FTy → Type) [FloatOps F] := (⟨S128, .i32⟩ : BufTy).Contents (Elt F)
abbrev Cols64 (F : FTy → Type) [FloatOps F] := (⟨S64, .i32⟩ : BufTy).Contents (Elt F)

/-- jnp's normalisation of a possibly negative index: `idx < 0 ? idx + 448 : idx`, element by element. -/
def wrap128 (idx : Cols128 F) : Cols128 F :=
  select (cmpi .slt idx (broadcastInDim S128 ![] bcast_S_S128 (constantI S_ 32 0#32)))
    (addi idx (broadcastInDim S128 ![] bcast_S_S128 (constantI S_ 32 448#32))) idx

def wrap64 (idx : Cols64 F) : Cols64 F :=
  select (cmpi .slt idx (broadcastInDim S64 ![] bcast_S_S64 (constantI S_ 32 0#32)))
    (addi idx (broadcastInDim S64 ![] bcast_S_S64 (constantI S_ 32 448#32))) idx

/-- `values.at[:, idx].set(upd)`: column `idx[e]` of every row is set to column `e` of `upd`. -/
def put128 (vals : Vals F) (idx : Cols128 F) (upd : Act128 F) : Vals F :=
  Host.scatter scatter_S16384x448_S128x1_S16384x128_0_1_1_1 (fun _ b => b) vals
    (broadcastInDim S128x1 ![0] bcast_S128_S128x1_0 (wrap128 idx)) upd

def put64 (vals : Vals F) (idx : Cols64 F) (upd : Act64 F) : Vals F :=
  Host.scatter scatter_S16384x448_S64x1_S16384x64_0_1_1_1 (fun _ b => b) vals
    (broadcastInDim S64x1 ![0] bcast_S64_S64x1_0 (wrap64 idx)) upd

/-- `jnp.take(values, idx, axis=1)`: column `e` of the result is column `idx[e]` of `vals` where
    `0 ≤ idx[e] ≤ 447`, and the NaN fill elsewhere. -/
def take128 (vals : Vals F) (idx : Cols128 F) : Act128 F :=
  select
    (broadcastInDim S16384x128 ![1] bcast_S128_S16384x128_1
      (Host.reduce IntOp.andi
        (andi
          (cmpi .sge (broadcastInDim S128x1 ![0] bcast_S128_S128x1_0 (wrap128 idx))
            (broadcastInDim S128x1 ![] bcast_S_S128x1 (constantI S_ 32 0#32)))
          (cmpi .sle (broadcastInDim S128x1 ![0] bcast_S128_S128x1_0 (wrap128 idx))
            (broadcastInDim S128x1 ![0, 1] bcast_S1x1_S128x1_0_1
              (broadcastInDim S1x1 ![1] bcast_S1_S1x1_1 (constantI S1 32 447#32)))))
        (constantI S_ 1 1#1) reducesTo_S128x1_S128_d1 h_S_))
    (Host.gather gather_S16384x448_S128x1_S16384x128_0_1_n_n_1_1_163841 vals
      (broadcastInDim S128x1 ![0] bcast_S128_S128x1_0 (wrap128 idx)))
    (broadcastInDim S16384x128 ![] bcast_S_S16384x128 (constant S_ .f32 0x7FC00000#32))

def take64 (vals : Vals F) (idx : Cols64 F) : Act64 F :=
  select
    (broadcastInDim S16384x64 ![1] bcast_S64_S16384x64_1
      (Host.reduce IntOp.andi
        (andi
          (cmpi .sge (broadcastInDim S64x1 ![0] bcast_S64_S64x1_0 (wrap64 idx))
            (broadcastInDim S64x1 ![] bcast_S_S64x1 (constantI S_ 32 0#32)))
          (cmpi .sle (broadcastInDim S64x1 ![0] bcast_S64_S64x1_0 (wrap64 idx))
            (broadcastInDim S64x1 ![0, 1] bcast_S1x1_S64x1_0_1
              (broadcastInDim S1x1 ![1] bcast_S1_S1x1_1 (constantI S1 32 447#32)))))
        (constantI S_ 1 1#1) reducesTo_S64x1_S64_d1 h_S_))
    (Host.gather gather_S16384x448_S64x1_S16384x64_0_1_n_n_1_1_163841 vals
      (broadcastInDim S64x1 ![0] bcast_S64_S64x1_0 (wrap64 idx)))
    (broadcastInDim S16384x64 ![] bcast_S_S16384x64 (constant S_ .f32 0x7FC00000#32))

/-- One masked dense layer of 128 outputs: `relu (x · (W ∘ M)ᵀ + b)`. -/
def dense128 (x : Act128 F) (W M : (⟨S128x128, .f32⟩ : BufTy).Contents (Elt F))
    (b : (⟨S128, .f32⟩ : BufTy).Contents (Elt F)) : Act128 F :=
  maximumf
    (addf
      (Host.dotGeneral dot_S16384x128_S128x128_S16384x128_1_0_0_1_n_n none x
        (transpose S128x128 [1, 0] (mulf W M) transposes_S128x128_S128x128_1_0))
      (broadcastInDim S16384x128 ![0, 1] bcast_S1x128_S16384x128_0_1
        (broadcastInDim S1x128 ![1] bcast_S128_S1x128_1 b)))
    (broadcastInDim S16384x128 ![] bcast_S_S16384x128 (constant S_ .f32 0x00000000#32))

/-- The output layer, 64 outputs. -/
def dense64 (x : Act128 F) (W M : (⟨S64x128, .f32⟩ : BufTy).Contents (Elt F))
    (b : (⟨S64, .f32⟩ : BufTy).Contents (Elt F)) : Act64 F :=
  maximumf
    (addf
      (Host.dotGeneral dot_S16384x128_S128x64_S16384x64_1_0_0_1_n_n none x
        (transpose S128x64 [1, 0] (mulf W M) transposes_S64x128_S128x64_1_0))
      (broadcastInDim S16384x64 ![0, 1] bcast_S1x64_S16384x64_0_1
        (broadcastInDim S1x64 ![1] bcast_S64_S1x64_1 b)))
    (broadcastInDim S16384x64 ![] bcast_S_S16384x64 (constant S_ .f32 0x00000000#32))

/-- The four column ranges: 0…127 (the inputs), 128…255, 256…383 (the hidden layers), 384…447 (the outputs). -/
def colsIn : Cols128 F := iotaInDim S128 32 0
def colsH1 : Cols128 F := addi (broadcastInDim S128 ![] bcast_S_S128 (constantI S_ 32 128#32)) (iotaInDim S128 32 0)
def colsH2 : Cols128 F := addi (broadcastInDim S128 ![] bcast_S_S128 (constantI S_ 32 256#32)) (iotaInDim S128 32 0)
def colsOut : Cols64 F := addi (broadcastInDim S64 ![] bcast_S_S64 (constantI S_ 32 384#32)) (iotaInDim S64 32 0)

/-- The buffer of zeros the reference starts from. -/
def vals0 : Vals F := broadcastInDim S16384x448 ![] bcast_S_S16384x448 (constant S_ .f32 0x00000000#32)

/-- The buffer after the inputs are put, and after each layer's output is put. -/
def valsIn (x : Act128 F) : Vals F := put128 vals0 colsIn x
def hidden1 (x : Act128 F) (W1 M1 : (⟨S128x128, .f32⟩ : BufTy).Contents (Elt F)) (b1 : (⟨S128, .f32⟩ : BufTy).Contents (Elt F)) : Act128 F :=
  dense128 (take128 (valsIn x) colsIn) W1 M1 b1
def valsH1 (x : Act128 F) (W1 M1 : (⟨S128x128, .f32⟩ : BufTy).Contents (Elt F)) (b1 : (⟨S128, .f32⟩ : BufTy).Contents (Elt F)) : Vals F :=
  put128 (valsIn x) colsH1 (hidden1 x W1 M1 b1)
def hidden2 (x : Act128 F) (W1 M1 : (⟨S128x128, .f32⟩ : BufTy).Contents (Elt F)) (b1 : (⟨S128, .f32⟩ : BufTy).Contents (Elt F))
    (W2 M2 : (⟨S128x128, .f32⟩ : BufTy).Contents (Elt F)) (b2 : (⟨S128, .f32⟩ : BufTy).Contents (Elt F)) : Act128 F :=
  dense128 (take128 (valsH1 x W1 M1 b1) colsH1) W2 M2 b2
def valsH2 (x : Act128 F) (W1 M1 : (⟨S128x128, .f32⟩ : BufTy).Contents (Elt F)) (b1 : (⟨S128, .f32⟩ : BufTy).Contents (Elt F))
    (W2 M2 : (⟨S128x128, .f32⟩ : BufTy).Contents (Elt F)) (b2 : (⟨S128, .f32⟩ : BufTy).Contents (Elt F)) : Vals F :=
  put128 (valsH1 x W1 M1 b1) colsH2 (hidden2 x W1 M1 b1 W2 M2 b2)
def outputs (x : Act128 F) (W1 M1 : (⟨S128x128, .f32⟩ : BufTy).Contents (Elt F)) (b1 : (⟨S128, .f32⟩ : BufTy).Contents (Elt F))
    (W2 M2 : (⟨S128x128, .f32⟩ : BufTy).Contents (Elt F)) (b2 : (⟨S128, .f32⟩ : BufTy).Contents (Elt F))
    (W3 M3 : (⟨S64x128, .f32⟩ : BufTy).Contents (Elt F)) (b3 : (⟨S64, .f32⟩ : BufTy).Contents (Elt F)) : Act64 F :=
  dense64 (take128 (valsH2 x W1 M1 b1 W2 M2 b2) colsH2) W3 M3 b3

/-- The reference's result, as one term of its ten arguments (in @main's order: inputs, W1, b1, M1, W2, b2,
    M2, W3, b3, M3): the outputs put into columns 384…447 and taken back. -/
def result (x : Act128 F) (W1 : (⟨S128x128, .f32⟩ : BufTy).Contents (Elt F)) (b1 : (⟨S128, .f32⟩ : BufTy).Contents (Elt F))
    (M1 : (⟨S128x128, .f32⟩ : BufTy).Contents (Elt F))
    (W2 : (⟨S128x128, .f32⟩ : BufTy).Contents (Elt F)) (b2 : (⟨S128, .f32⟩ : BufTy).Contents (Elt F))
    (M2 : (⟨S128x128, .f32⟩ : BufTy).Contents (Elt F))
    (W3 : (⟨S64x128, .f32⟩ : BufTy).Contents (Elt F)) (b3 : (⟨S64, .f32⟩ : BufTy).Contents (Elt F))
    (M3 : (⟨S64x128, .f32⟩ : BufTy).Contents (Elt F)) : Act64 F :=
  take64 (put64 (valsH2 x W1 M1 b1 W2 M2 b2) colsOut (outputs x W1 M1 b1 W2 M2 b2 W3 M3 b3)) colsOut

end Cert.ReferenceIdeal.RefValue

end
-- ==== Proof.RefLayers.lean ====
/-
  The reference's dense layer read at one entry, and three of them as the row-wise function.

  `relu (x · (W ∘ M)ᵀ + b)` on the host: the product contracts the row of `x` with a column of the
  transposed masked weights, that is with row `j` of `W ∘ M`; the bias is laid along every row; the ramp
  is the maximum with a zero broadcast from a scalar. At (row, unit) this is the unit applied to the row.
-/
import proofs.«107552_g58299886076360_cont_9to1_m_691_22_alg».proof.Proof.RefTerm
import proofs.«107552_g58299886076360_cont_9to1_m_691_22_alg».proof.Proof.Gen.ReferenceIdeal
import proofs.«107552_g58299886076360_cont_9to1_m_691_22_alg».proof.Proof.MaskedMlp
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.RefValue

open Cert.ReferenceIdeal Idealize.ShloMosaic Idealize.ShloMosaic.ValueIdx
open Facts₀ Facts

/-! ## The two products' operand indices -/

theorem lhsIdx128 (r : Fin 16384) (j : Fin 128) (k : Fin 128) :
    dot_S16384x128_S128x128_S16384x128_1_0_0_1_n_n.lhsIdx (ix2 r j) ((contrEquiv1 dot_S16384x128_S128x128_S16384x128_1_0_0_1_n_n 128 rfl rfl).symm k) = ix2 r k := by
  have hk := contrEquiv1_symm_val dot_S16384x128_S128x128_S16384x128_1_0_0_1_n_n 128 rfl rfl k
  refine funext fun a => Fin.ext ?_
  match a with
  | ⟨0, _⟩ =>
    show (dot_S16384x128_S128x128_S16384x128_1_0_0_1_n_n.lhsIdx _ _ 0).val = r.val
    unfold DotDims.lhsIdx
    rw [dif_neg (show ¬(0 : Fin S16384x128.rank) ∈ dot_S16384x128_S128x128_S16384x128_1_0_0_1_n_n.lhsBatch by decide),
      dif_pos (show (0 : Fin S16384x128.rank) ∈ dot_S16384x128_S128x128_S16384x128_1_0_0_1_n_n.lhsNonContracting by decide)]
    rfl
  | ⟨1, _⟩ =>
    exact (dot_S16384x128_S128x128_S16384x128_1_0_0_1_n_n.lhsIdx_val_of_single rfl _ _).trans hk

theorem rhsIdx128 (r : Fin 16384) (j : Fin 128) (k : Fin 128) :
    dot_S16384x128_S128x128_S16384x128_1_0_0_1_n_n.rhsIdx (ix2 r j) ((contrEquiv1 dot_S16384x128_S128x128_S16384x128_1_0_0_1_n_n 128 rfl rfl).symm k) = ix2 k j := by
  have hk := contrEquiv1_symm_val dot_S16384x128_S128x128_S16384x128_1_0_0_1_n_n 128 rfl rfl k
  refine funext fun a => Fin.ext ?_
  match a with
  | ⟨0, _⟩ =>
    exact (dot_S16384x128_S128x128_S16384x128_1_0_0_1_n_n.rhsIdx_val_of_single rfl _ _).trans hk
  | ⟨1, _⟩ =>
    show (dot_S16384x128_S128x128_S16384x128_1_0_0_1_n_n.rhsIdx _ _ 1).val = j.val
    unfold DotDims.rhsIdx
    rw [dif_neg (show ¬(1 : Fin S128x128.rank) ∈ dot_S16384x128_S128x128_S16384x128_1_0_0_1_n_n.rhsBatch by decide),
      dif_pos (show (1 : Fin S128x128.rank) ∈ dot_S16384x128_S128x128_S16384x128_1_0_0_1_n_n.rhsNonContracting by decide)]
    rfl

/-- The host's product at (row, unit): the sum over the 128 inputs of the row's entry times the right operand's
    entry at (input, unit). -/
theorem dot128_apply (x : FVec Ideal S16384x128 .f32) (w : FVec Ideal S128x128 .f32) (r : Fin 16384) (j : Fin 128) :
    Host.dotGeneral dot_S16384x128_S128x128_S16384x128_1_0_0_1_n_n none x w (ix2 r j) = ∑ k : Fin 128, x (ix2 r k) * w (ix2 k j) := by
  simp only [Host.dotGeneral]
  rw [Ideal.dotGeneral_apply, ← Equiv.sum_comp (contrEquiv1 dot_S16384x128_S128x128_S16384x128_1_0_0_1_n_n 128 rfl rfl).symm]
  refine Finset.sum_congr rfl fun k _ => ?_
  rw [lhsIdx128, rhsIdx128]

theorem lhsIdx64 (r : Fin 16384) (j : Fin 64) (k : Fin 128) :
    dot_S16384x128_S128x64_S16384x64_1_0_0_1_n_n.lhsIdx (ix2 r j) ((contrEquiv1 dot_S16384x128_S128x64_S16384x64_1_0_0_1_n_n 128 rfl rfl).symm k) = ix2 r k := by
  have hk := contrEquiv1_symm_val dot_S16384x128_S128x64_S16384x64_1_0_0_1_n_n 128 rfl rfl k
  refine funext fun a => Fin.ext ?_
  match a with
  | ⟨0, _⟩ =>
    show (dot_S16384x128_S128x64_S16384x64_1_0_0_1_n_n.lhsIdx _ _ 0).val = r.val
    unfold DotDims.lhsIdx
    rw [dif_neg (show ¬(0 : Fin S16384x128.rank) ∈ dot_S16384x128_S128x64_S16384x64_1_0_0_1_n_n.lhsBatch by decide),
      dif_pos (show (0 : Fin S16384x128.rank) ∈ dot_S16384x128_S128x64_S16384x64_1_0_0_1_n_n.lhsNonContracting by decide)]
    rfl
  | ⟨1, _⟩ =>
    exact (dot_S16384x128_S128x64_S16384x64_1_0_0_1_n_n.lhsIdx_val_of_single rfl _ _).trans hk

theorem rhsIdx64 (r : Fin 16384) (j : Fin 64) (k : Fin 128) :
    dot_S16384x128_S128x64_S16384x64_1_0_0_1_n_n.rhsIdx (ix2 r j) ((contrEquiv1 dot_S16384x128_S128x64_S16384x64_1_0_0_1_n_n 128 rfl rfl).symm k) = ix2 k j := by
  have hk := contrEquiv1_symm_val dot_S16384x128_S128x64_S16384x64_1_0_0_1_n_n 128 rfl rfl k
  refine funext fun a => Fin.ext ?_
  match a with
  | ⟨0, _⟩ =>
    exact (dot_S16384x128_S128x64_S16384x64_1_0_0_1_n_n.rhsIdx_val_of_single rfl _ _).trans hk
  | ⟨1, _⟩ =>
    show (dot_S16384x128_S128x64_S16384x64_1_0_0_1_n_n.rhsIdx _ _ 1).val = j.val
    unfold DotDims.rhsIdx
    rw [dif_neg (show ¬(1 : Fin S128x64.rank) ∈ dot_S16384x128_S128x64_S16384x64_1_0_0_1_n_n.rhsBatch by decide),
      dif_pos (show (1 : Fin S128x64.rank) ∈ dot_S16384x128_S128x64_S16384x64_1_0_0_1_n_n.rhsNonContracting by decide)]
    rfl

/-- The host's product at (row, unit): the sum over the 128 inputs of the row's entry times the right operand's
    entry at (input, unit). -/
theorem dot64_apply (x : FVec Ideal S16384x128 .f32) (w : FVec Ideal S128x64 .f32) (r : Fin 16384) (j : Fin 64) :
    Host.dotGeneral dot_S16384x128_S128x64_S16384x64_1_0_0_1_n_n none x w (ix2 r j) = ∑ k : Fin 128, x (ix2 r k) * w (ix2 k j) := by
  simp only [Host.dotGeneral]
  rw [Ideal.dotGeneral_apply, ← Equiv.sum_comp (contrEquiv1 dot_S16384x128_S128x64_S16384x64_1_0_0_1_n_n 128 rfl rfl).symm]
  refine Finset.sum_congr rfl fun k _ => ?_
  rw [lhsIdx64, rhsIdx64]

/-! ## A bias laid along every row -/

theorem biasRow128 (b : FVec Ideal S128 .f32) (r : Fin 16384) (j : Fin 128) :
    broadcastInDim S16384x128 ![0, 1] bcast_S1x128_S16384x128_0_1 (broadcastInDim S1x128 ![1] bcast_S128_S1x128_1 b) (ix2 r j)
      = b (ix1 j) := by
  rw [broadcastInDim_oneRow_apply]
  refine broadcastInDim_apply ![1] bcast_S128_S1x128_1 b (ix2 (0 : Fin 1) j) (ix1 j) fun a => ?_
  match a with
  | ⟨0, _⟩ =>
    show j.val = if (128 : ℕ) = 1 then 0 else j.val
    rw [if_neg (by decide)]

theorem biasRow64 (b : FVec Ideal S64 .f32) (r : Fin 16384) (j : Fin 64) :
    broadcastInDim S16384x64 ![0, 1] bcast_S1x64_S16384x64_0_1 (broadcastInDim S1x64 ![1] bcast_S64_S1x64_1 b) (ix2 r j)
      = b (ix1 j) := by
  rw [broadcastInDim_oneRow_apply]
  refine broadcastInDim_apply ![1] bcast_S64_S1x64_1 b (ix2 (0 : Fin 1) j) (ix1 j) fun a => ?_
  match a with
  | ⟨0, _⟩ =>
    show j.val = if (64 : ℕ) = 1 then 0 else j.val
    rw [if_neg (by decide)]

/-! ## A dense layer at (row, unit) -/

theorem dense128_apply (x : Act128 Ideal) (W M : FVec Ideal S128x128 .f32) (b : FVec Ideal S128 .f32) (r : Fin 16384) (j : Fin 128) :
    dense128 x W M b (ix2 r j) = MaskedMlp.layer (fun k => x (ix2 r k)) W M b j := by
  unfold dense128
  rw [maximumf_apply, addf_apply, dot128_apply, biasRow128, broadcastInDim_scalar_apply, constant_apply, Ideal.ofBits_zero_f32]
  have e : ∀ k : Fin 128, transpose S128x128 [1, 0] (mulf W M) transposes_S128x128_S128x128_1_0 (ix2 k j) = W (ix2 j k) * M (ix2 j k) :=
    fun k => transpose_ix2_apply (mulf W M) transposes_S128x128_S128x128_1_0 k j
  simp only [e]
  rfl

theorem dense64_apply (x : Act128 Ideal) (W M : FVec Ideal S64x128 .f32) (b : FVec Ideal S64 .f32) (r : Fin 16384) (j : Fin 64) :
    dense64 x W M b (ix2 r j) = MaskedMlp.layer (fun k => x (ix2 r k)) W M b j := by
  unfold dense64
  rw [maximumf_apply, addf_apply, dot64_apply, biasRow64, broadcastInDim_scalar_apply, constant_apply, Ideal.ofBits_zero_f32]
  have e : ∀ k : Fin 128, transpose S128x64 [1, 0] (mulf W M) transposes_S64x128_S128x64_1_0 (ix2 k j) = W (ix2 j k) * M (ix2 j k) :=
    fun k => transpose_ix2_apply (mulf W M) transposes_S64x128_S128x64_1_0 k j
  simp only [e]
  rfl

/-! ## Three dense layers are the row-wise function -/

theorem layers_eq_rows (x : Act128 Ideal) (W1 : FVec Ideal S128x128 .f32) (b1 : FVec Ideal S128 .f32) (M1 : FVec Ideal S128x128 .f32)
    (W2 : FVec Ideal S128x128 .f32) (b2 : FVec Ideal S128 .f32) (M2 : FVec Ideal S128x128 .f32)
    (W3 : FVec Ideal S64x128 .f32) (b3 : FVec Ideal S64 .f32) (M3 : FVec Ideal S64x128 .f32) :
    dense64 (dense128 (dense128 x W1 M1 b1) W2 M2 b2) W3 M3 b3 = MaskedMlp.rows x W1 M1 b1 W2 M2 b2 W3 M3 b3 := by
  funext i
  obtain ⟨r, q, rfl⟩ : ∃ (r : Fin 16384) (q : Fin 64), i = ix2 r q := ⟨i 0, i 1, eq_ix2 i⟩
  rw [dense64_apply, MaskedMlp.rows_apply]
  have e1 : (fun k => dense128 x W1 M1 b1 (ix2 r k)) = MaskedMlp.layer (fun k => x (ix2 r k)) W1 M1 b1 :=
    funext fun k => dense128_apply x W1 M1 b1 r k
  have e2 : (fun k => dense128 (dense128 x W1 M1 b1) W2 M2 b2 (ix2 r k))
      = MaskedMlp.layer (MaskedMlp.layer (fun k => x (ix2 r k)) W1 M1 b1) W2 M2 b2 :=
    funext fun k => by rw [dense128_apply, e1]
  rw [e2]
  rfl

end Cert.ReferenceIdeal.RefValue

end
-- ==== Proof.LibScatterRead.lean ====
/-
  Reading a scatter at one operand index.

  `Host.scatter` is a left fold over the update indices in row-major order: an update index whose
  result index is `some i` replaces the element at `i` by the body applied to the old element and
  the update's; one whose result index is `none` is dropped. Read at a fixed operand index `i`:

  * if no update index lands on `i`, the element is the operand's;
  * if the body returns the update (`fun _ b => b`, a "set") and exactly one update index `j0`
    lands on `i`, the element is `upd j0`.
-/
import Idealize.ShloMosaic.PureOps.ShapeOps

namespace Idealize.ShloMosaic.ScatterRead

open Idealize.ShloMosaic

/-- A left fold of steps `g` on functions, read at a point `i`: if every step whose index fails `P`
    leaves the value at `i` alone and no index of the list satisfies `P`, the value at `i` is the
    start's. -/
private theorem foldl_apply_of_not_hit {β ι κ : Type} (g : (κ → β) → ι → (κ → β)) (i : κ) (P : ι → Prop)
    (hmiss : ∀ r n, ¬ P n → g r n i = r i) :
    ∀ (l : List ι) (r : κ → β), (∀ n ∈ l, ¬ P n) → l.foldl g r i = r i := by
  intro l
  induction l with
  | nil => intro r _; rfl
  | cons n l ih =>
    intro r h
    rw [List.foldl_cons, ih (g r n) (fun m hm => h m (List.mem_cons_of_mem _ hm))]
    exact hmiss r n (h n List.mem_cons_self)

/-- The same fold when exactly one index `n0` of a list without repeats satisfies `P`, and a step
    whose index satisfies `P` sets the value at `i` to `v` of that index: the value at `i` is
    `v n0` (the steps before `n0` are overwritten, the steps after it leave `i` alone). -/
private theorem foldl_apply_of_unique_hit {β ι κ : Type} (g : (κ → β) → ι → (κ → β)) (i : κ) (P : ι → Prop)
    (v : ι → β) (hmiss : ∀ r n, ¬ P n → g r n i = r i) (hhit : ∀ r n, P n → g r n i = v n) (n0 : ι) (h0 : P n0) :
    ∀ (l : List ι) (r : κ → β), l.Nodup → n0 ∈ l → (∀ n ∈ l, P n → n = n0) → l.foldl g r i = v n0 := by
  intro l
  induction l with
  | nil => intro r _ hmem _; exact absurd hmem List.not_mem_nil
  | cons n l ih =>
    intro r hnd hmem huniq
    rw [List.nodup_cons] at hnd
    rw [List.foldl_cons]
    rcases List.mem_cons.1 hmem with hEq | hIn
    · -- `n0` is the head: the tail has no index satisfying `P`
      subst hEq
      rw [foldl_apply_of_not_hit g i P hmiss l (g r n0) (fun m hm hP => by
        have := huniq m (List.mem_cons_of_mem _ hm) hP
        exact hnd.1 (this ▸ hm))]
      exact hhit r n0 h0
    · exact ih (g r n) hnd.2 hIn (fun m hm => huniq m (List.mem_cons_of_mem _ hm))

variable {s si u : Shape} {w : Nat} {α : Type}

/-- One step of the scatter's fold leaves the element at `i` alone when its update index does not
    land on `i`. -/
private theorem step_of_ne (d : ScatterDims s si u) (f : α → α → α) (idx : IVec si w) (upd : u.Idx → α) (i : s.Idx)
    (r : s.Idx → α) (n : Fin u.numel) (h : ¬ d.resultIdx? (u.rowMajor.symm n) idx = some i) :
    (match d.resultIdx? (u.rowMajor.symm n) idx with
      | some i₁ => fun i' => if i' = i₁ then f (r i₁) (upd (u.rowMajor.symm n)) else r i'
      | none => r) i = r i := by
  generalize d.resultIdx? (u.rowMajor.symm n) idx = o at h ⊢
  cases o with
  | none => rfl
  | some i₁ =>
    have hne : i ≠ i₁ := fun e => h (by rw [e])
    exact if_neg hne

/-- One step of a "set" scatter's fold puts the update's element at `i` when its update index
    lands on `i`. -/
private theorem step_of_eq (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some i₁ => fun i' => if i' = i₁ then (fun _ b => b) (r i₁) (upd (u.rowMajor.symm n)) else r i'
      | none => r) i = upd (u.rowMajor.symm n) := by
  generalize d.resultIdx? (u.rowMajor.symm n) idx = o at h ⊢
  subst h
  exact if_pos rfl

/-- A scatter read at an operand index that NO update index lands on is the operand's element,
    whatever the body `f` is. -/
theorem scatter_apply_of_not_hit {s si u : Shape} {w : Nat} {α : Type} (d : ScatterDims s si u) (f : α → α → α) (x : s.Idx → α)
    (idx : IVec si w) (upd : u.Idx → α) (i : s.Idx) (h : ∀ j : u.Idx, d.resultIdx? j idx ≠ some i) :
    Host.scatter d f x idx upd i = x i := by
  unfold Host.scatter
  exact foldl_apply_of_not_hit _ i (fun n => d.resultIdx? (u.rowMajor.symm n) idx = some i)
    (fun r n hn => step_of_ne d f idx upd i r n hn) (List.finRange u.numel) x (fun n _ => h (u.rowMajor.symm n))

/-- A scatter whose body returns the update (`fun _ b => b`: a scatter that SETS elements), read at an
    operand index `i` that exactly one update index `j0` lands on, is the update's element at `j0`. -/
theorem scatter_set_apply_of_unique {s si u : Shape} {w : Nat} {α : Type} (d : ScatterDims s si u) (x : s.Idx → α)
    (idx : IVec si w) (upd : u.Idx → α) (i : s.Idx) (j0 : u.Idx) (h0 : d.resultIdx? j0 idx = some i)
    (huniq : ∀ j : u.Idx, d.resultIdx? j idx = some i → j = j0) :
    Host.scatter d (fun _ b => b) x idx upd i = upd j0 := by
  unfold Host.scatter
  have key := foldl_apply_of_unique_hit
    (fun (r : s.Idx → α) (n : Fin u.numel) =>
      match d.resultIdx? (u.rowMajor.symm n) idx with
      | some i₁ => fun i' => if i' = i₁ then (fun _ b => b) (r i₁) (upd (u.rowMajor.symm n)) else r i'
      | none => r)
    i (fun n => d.resultIdx? (u.rowMajor.symm n) idx = some i) (fun n => upd (u.rowMajor.symm n))
    (fun r n hn => step_of_ne d (fun _ b => b) idx upd i r n hn)
    (fun r n hn => step_of_eq d idx upd i r n hn)
    (u.rowMajor j0) (by rw [Equiv.symm_apply_apply]; exact h0)
    (List.finRange u.numel) x (List.nodup_finRange _) (List.mem_finRange _)
    (fun n _ hn => (Equiv.symm_apply_eq _).1 (huniq _ hn))
  rw [Equiv.symm_apply_apply] at key
  exact key

end Idealize.ShloMosaic.ScatterRead
-- ==== Proof.LibTakePutCols.lean ====
/-
  Taking back the columns that were just put.

  An array of \`N\` rows and \`C\` columns, a list of \`M\` column numbers \`idx\` (an \`M × 1\` array of
  words, read signed) and an \`N × M\` array \`upd\`:

  * \`values.at[:, idx].set(upd)\` is a scatter whose update index \`(r, e)\` lands at \`(r, idx[e])\`
    (\`putColsDims\`: the update's rows are the window, its columns follow the scatter indices);
  * \`values[:, idx]\` is a gather whose result index \`(r, e)\` reads \`(r, idx[e])\`, the column
    number clamped into \`[0, C − 1]\` (\`takeColsDims\`).

  When the column numbers are in range and pairwise distinct, the gather of the scatter at the same
  column numbers is the update array itself, whatever the array put into held (\`gather_scatter_cols\`).
  On the way: a scatter's result index read back in both directions for any dimension numbers
  (\`resultIdx?_eq_some\`, \`resultIdx?_of_eq\`), the landing place of an update index of the column
  scatter (\`putCols_resultIdx?\`), the column gather read at an index (\`gather_cols_apply\`), and the
  column scatter read at a column that was put (\`scatter_cols_apply\`).
-/
import Idealize.ShloMosaic.Lib.ValueIdx
import proofs.«107552_g58299886076360_cont_9to1_m_691_22_alg».proof.Proof.LibScatterRead

namespace Idealize.ShloMosaic.TakePutCols

open Idealize.ShloMosaic Idealize.ShloMosaic.ValueIdx

/-! ## A scatter's result index, read back (any dimension numbers) -/

/-- If update index \`j\` lands at operand index \`i\`, then on every axis the start plus the window
    coordinate is \`i\`'s coordinate. -/
theorem resultIdx?_eq_some {s si u : Shape} {w : Nat} (d : ScatterDims s si u) (j : u.Idx) (idx : IVec si w) (i : s.Idx)
    (h : d.resultIdx? j idx = some i) (a : Fin s.rank) : d.start j idx a + (d.window j a : Int) = ((i a).val : Int) := by
  unfold ScatterDims.resultIdx? at h
  split at h
  · rename_i H
    have hi := Option.some.inj h
    subst hi
    exact (Int.toNat_of_nonneg (H a).1).symm
  · exact absurd h (by simp)

/-- Conversely, if on every axis the start plus the window coordinate is \`i\`'s coordinate, update
    index \`j\` lands at \`i\`. -/
theorem resultIdx?_of_eq {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, Int.ofNat_lt.2 (i a).isLt⟩)]
  congr 1
  funext a
  exact Fin.ext (by simp only [h a, Int.toNat_natCast])

/-! ## The column scatter -/

section Cols
variable {α : Type} {N C M w : Nat}

/-- The dimension numbers of \`values.at[:, idx].set(upd)\` for \`values : [N, C]\`, the column numbers as
    \`[M, 1]\` and \`upd : [N, M]\`: update_window_dims \`[0]\`, inserted_window_dims \`[1]\`,
    scatter_dims_to_operand_dims \`[1]\`, index_vector_dim 1. -/
abbrev putColsDims (N C M : Nat) (wf : ScatterDims.WF ⟨2, ![N, C]⟩ ⟨2, ![M, 1]⟩ ⟨2, ![N, M]⟩ [0] [1] [1] 1) :
    ScatterDims ⟨2, ![N, C]⟩ ⟨2, ![M, 1]⟩ ⟨2, ![N, M]⟩ where
  updateWindowDims := [0]
  insertedWindowDims := [1]
  scatterDimsToOperandDims := [1]
  indexVectorDim := 1
  wf := wf

variable (wfs : ScatterDims.WF ⟨2, ![N, C]⟩ ⟨2, ![M, 1]⟩ ⟨2, ![N, M]⟩ [0] [1] [1] 1)

/-- On the row axis the window starts at 0 … -/
theorem putCols_start_row (idx : IVec ⟨2, ![M, 1]⟩ w) (r : Fin N) (e : Fin M) :
    (putColsDims N C M wfs).start (ix2 r e) idx 0 = 0 := by
  unfold ScatterDims.start
  rw [dif_neg (show (0 : Fin 2) ∉ ([1] : List (Fin 2)) from by decide)]

/-- … and on the column axis at the column number of the update's column, read signed. -/
theorem putCols_start_col (idx : IVec ⟨2, ![M, 1]⟩ w) (r : Fin N) (e : Fin M) :
    (putColsDims N C M wfs).start (ix2 r e) idx 1 = (idx (ix2 e 0)).toInt := by
  unfold ScatterDims.start
  rw [dif_pos (show (1 : Fin 2) ∈ (putColsDims N C M wfs).scatterDimsToOperandDims from List.mem_singleton.mpr rfl)]
  have hsi : (putColsDims N C M wfs).siIdx (ix2 r e) ⟨List.idxOf (1 : Fin 2) (putColsDims N C M wfs).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window coordinate is the update's row on the row axis … -/
theorem putCols_window_row (r : Fin N) (e : Fin M) : (putColsDims N C M wfs).window (ix2 r e) 0 = r.val := by
  unfold ScatterDims.window
  have hm : (0 : Fin 2) ∈ (putColsDims N C M wfs).sKept :=
    show (0 : Fin 2) ∈ (List.finRange 2).filter (· ∉ ([1] : List (Fin 2))) from by decide
  rw [dif_pos hm]
  rfl

/-- … and 0 on the column axis, which the window does not have. -/
theorem putCols_window_col (r : Fin N) (e : Fin M) : (putColsDims N C M wfs).window (ix2 r e) 1 = 0 := by
  unfold ScatterDims.window
  have hm : (1 : Fin 2) ∉ (putColsDims N C M wfs).sKept :=
    show (1 : Fin 2) ∉ (List.finRange 2).filter (· ∉ ([1] : List (Fin 2))) from by decide
  rw [dif_neg hm]

/-- Update index \`(r, e)\` lands at \`(r, c)\` exactly when the column number \`idx[e]\`, read signed, is \`c\`. -/
theorem putCols_resultIdx? (idx : IVec ⟨2, ![M, 1]⟩ w) (r r' : Fin N) (e : Fin M) (c : Fin C) :
    (putColsDims N C M wfs).resultIdx? (ix2 r e) idx = some (ix2 r' c) ↔ r = r' ∧ (idx (ix2 e 0)).toInt = (c.val : Int) := by
  constructor
  · intro h
    have h0 : (putColsDims N C M wfs).start (ix2 r e) idx 0 + ((putColsDims N C M wfs).window (ix2 r e) 0 : Int)
        = (r'.val : Int) := resultIdx?_eq_some _ _ _ _ h 0
    have h1 : (putColsDims N C M wfs).start (ix2 r e) idx 1 + ((putColsDims N C M wfs).window (ix2 r e) 1 : Int)
        = (c.val : Int) := resultIdx?_eq_some _ _ _ _ h 1
    rw [putCols_start_row, putCols_window_row] at h0
    rw [putCols_start_col, putCols_window_col] at h1
    refine ⟨Fin.ext ?_, ?_⟩
    · have : ((r.val : Int)) = (r'.val : Int) := by simpa using h0
      exact Int.ofNat.inj this
    · simpa using h1
  · rintro ⟨rfl, hc⟩
    refine resultIdx?_of_eq _ _ _ _ fun a => ?_
    match a with
    | ⟨0, _⟩ =>
      show (putColsDims N C M wfs).start (ix2 r e) idx 0 + ((putColsDims N C M wfs).window (ix2 r e) 0 : Int) = (r.val : Int)
      rw [putCols_start_row, putCols_window_row, Int.zero_add]
    | ⟨1, _⟩ =>
      show (putColsDims N C M wfs).start (ix2 r e) idx 1 + ((putColsDims N C M wfs).window (ix2 r e) 1 : Int) = (c.val : Int)
      rw [putCols_start_col, putCols_window_col, hc]; simp

/-- THE COLUMN SCATTER READ AT A COLUMN THAT WAS PUT: when the column numbers are in range and pairwise
    distinct (\`idx[e]\`, read signed, is \`col e\` for an injective \`col\`), the array after the put holds
    \`upd (r, e)\` at \`(r, col e)\`. -/
theorem scatter_cols_apply (x : (⟨2, ![N, C]⟩ : Shape).Idx → α) (idx : IVec ⟨2, ![M, 1]⟩ w)
    (upd : (⟨2, ![N, M]⟩ : Shape).Idx → α) (col : Fin M → Fin C) (hcol : Function.Injective col)
    (hidx : ∀ e : Fin M, (idx (ix2 e 0)).toInt = ((col e).val : Int)) (r : Fin N) (e : Fin M) :
    Host.scatter (putColsDims N C M wfs) (fun _ b => b) x idx upd (ix2 r (col e)) = upd (ix2 r e) := by
  refine ScatterRead.scatter_set_apply_of_unique _ x idx upd _ (ix2 r e) ((putCols_resultIdx? wfs idx r r e (col e)).2 ⟨rfl, hidx e⟩) ?_
  intro j hj
  obtain ⟨r', e', rfl⟩ : ∃ (r' : Fin N) (e' : Fin M), j = ix2 r' e' := ⟨j 0, j 1, eq_ix2 j⟩
  obtain ⟨rfl, hc⟩ := (putCols_resultIdx? wfs idx r' r e' (col e)).1 hj
  have : col e' = col e := Fin.ext (Int.ofNat.inj ((hidx e').symm.trans hc))
  rw [hcol this]

/-! ## The column gather -/

/-- The dimension numbers of \`values[:, idx]\` (\`jnp.take\` along axis 1) for \`values : [N, C]\`, the column
    numbers as \`[M, 1]\` and the result \`[N, M]\`: offset_dims \`[0]\`, collapsed_slice_dims \`[1]\`, start_index_map
    \`[1]\`, index_vector_dim 1, slice_sizes \`[N, 1]\`. -/
abbrev takeColsDims (N C M : Nat)
    (wf : GatherDims.WF ⟨2, ![N, C]⟩ ⟨2, ![M, 1]⟩ ⟨2, ![N, M]⟩ [0] [1] [] [1] [] 1 ![N, 1]) :
    GatherDims ⟨2, ![N, C]⟩ ⟨2, ![M, 1]⟩ ⟨2, ![N, M]⟩ where
  offsetDims := [0]
  collapsedSliceDims := [1]
  operandBatchingDims := []
  startIndicesBatchingDims := []
  startIndexMap := [1]
  indexVectorDim := 1
  sliceSizes := ![N, 1]
  wf := wf

variable (wfg : GatherDims.WF ⟨2, ![N, C]⟩ ⟨2, ![M, 1]⟩ ⟨2, ![N, M]⟩ [0] [1] [] [1] [] 1 ![N, 1])

/-- THE COLUMN GATHER READ AT \`(r, e)\`: the operand at row \`r\` and the column number \`idx[e]\`, read signed and
    clamped into \`[0, C − 1]\`. -/
theorem gather_cols_apply (hC : 0 < C) (x : (⟨2, ![N, C]⟩ : Shape).Idx → α) (idx : IVec ⟨2, ![M, 1]⟩ w) (r : Fin N) (e : Fin M) :
    Host.gather (takeColsDims N C M wfg) x idx (ix2 r e)
      = x (ix2 r ⟨min (idx (ix2 e 0)).toInt.toNat (C - 1), by omega⟩) := by
  unfold Host.gather
  congr 1
  funext a
  refine Fin.ext ?_
  match a with
  | ⟨0, _⟩ =>
    show (takeColsDims N C M wfg).start (ix2 r e) idx 0 + (takeColsDims N C M wfg).batchCoord (ix2 r e) 0
      + (takeColsDims N C M wfg).offCoord (ix2 r e) 0 = r.val
    rw [GatherDims.batchCoord_eq_zero _ _ _ List.not_mem_nil]
    unfold GatherDims.start GatherDims.offCoord
    have hm : (0 : Fin 2) ∈ (takeColsDims N C M wfg).sKept :=
      show (0 : Fin 2) ∈ (List.finRange 2).filter (· ∉ (([1] : List (Fin 2)) ++ [])) from by decide
    rw [dif_neg (show (0 : Fin 2) ∉ ([1] : List (Fin 2)) from by decide), dif_pos hm]
    simp only [Nat.zero_add]
    rfl
  | ⟨1, _⟩ =>
    show (takeColsDims N C M wfg).start (ix2 r e) idx 1 + (takeColsDims N C M wfg).batchCoord (ix2 r e) 1
      + (takeColsDims N C M wfg).offCoord (ix2 r e) 1 = min (idx (ix2 e 0)).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims N C M wfg).startIndexMap from List.mem_singleton.mpr rfl)]
    have hsi : (takeColsDims N C M wfg).siIdx (ix2 r e) ⟨List.idxOf (1 : Fin 2) (takeColsDims N C M wfg).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## Taking back what was put -/

/-- TAKING BACK THE COLUMNS THAT WERE JUST PUT: when the column numbers are in range and pairwise distinct
    (\`idx[e]\`, read signed, is \`col e\` for an injective \`col : Fin M → Fin C\`), the gather of the scatter at the
    same column numbers is the update array, whatever the array \`x\` put into held. -/
theorem gather_scatter_cols (x : (⟨2, ![N, C]⟩ : Shape).Idx → α) (idx : IVec ⟨2, ![M, 1]⟩ w)
    (upd : (⟨2, ![N, M]⟩ : Shape).Idx → α) (col : Fin M → Fin C) (hcol : Function.Injective col)
    (hidx : ∀ e : Fin M, (idx (ix2 e 0)).toInt = ((col e).val : Int)) :
    Host.gather (takeColsDims N C M wfg) (Host.scatter (putColsDims N C M wfs) (fun _ b => b) x idx upd) idx = upd := by
  funext j
  obtain ⟨r, e, rfl⟩ : ∃ (r : Fin N) (e : Fin M), j = ix2 r e := ⟨j 0, j 1, eq_ix2 j⟩
  have hC : 0 < C := Nat.lt_of_le_of_lt (Nat.zero_le _) (col e).isLt
  rw [gather_cols_apply wfg hC]
  have hc : (⟨min (idx (ix2 e 0)).toInt.toNat (C - 1), by omega⟩ : Fin C) = col e := by
    refine Fin.ext ?_
    show min (idx (ix2 e 0)).toInt.toNat (C - 1) = (col e).val
    rw [hidx e, Int.toNat_natCast]
    have := (col e).isLt
    omega
  rw [hc]
  exact scatter_cols_apply wfs x idx upd col hcol hidx r e

end Cols

end Idealize.ShloMosaic.TakePutCols
-- ==== Proof.TakePut.lean ====
/-
  The buffer of activations collapses.

  The reference puts each layer's activation into a range of columns of one 16384 × 448 buffer and takes the same
  range back before the next layer. The ranges are 0…127, 128…255, 256…383 and 384…447: inside the buffer, and
  without repeats. So the normalisation of negative column numbers changes nothing, the in-range mask of the take is
  1 at every column (the NaN fill is never selected), and the take of the put is what was put
  (\`take128_put128\`, \`take64_put64\`, from the general statement for a scatter and a gather along the columns).
  The reference's result is therefore three masked dense layers applied to the inputs (\`result_eq_layers\`).
-/
import proofs.«107552_g58299886076360_cont_9to1_m_691_22_alg».proof.Proof.RefTerm
import proofs.«107552_g58299886076360_cont_9to1_m_691_22_alg».proof.Proof.LibTakePutCols
import Idealize.ShloMosaic.Lib.ReduceAll
import Idealize.ShloMosaic.Lib.IdealHost

noncomputable section

namespace Cert.ReferenceIdeal.RefValue

open Cert.ReferenceIdeal Idealize.ShloMosaic Idealize.ShloMosaic.TcCoe Idealize.SL.Sem Idealize.ShloMosaic.ValueIdx

/-! ## Words -/

/-- A word written from a natural number below 448 reads back, signed, as that number. -/
theorem toInt_ofNat_lt {n : Nat} (h : n < 448) : (BitVec.ofNat 32 n).toInt = (n : Int) := by
  have hn : (BitVec.ofNat 32 n).toNat = n := by rw [BitVec.toNat_ofNat]; omega
  rw [BitVec.toInt_eq_toNat_of_lt (by omega), hn]

theorem toInt_447 : (447#32 : BitVec 32).toInt = 447 := by decide

/-- A reduction by \`and\` from 1 of an array of ones is 1 at every index. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  generalize (((List.finRange s.numel).map s.rowMajor.symm).filter fun i => h.drop i = j) = l
  induction l with
  | nil => rfl
  | cons a l ih => rw [List.foldl_cons, hx a]; exact ih

variable {F : FTy → Type} [FloatOps F] [Facts]
open Facts₀ Facts

/-! ## 128 columns -/

/-- The column numbers as an \`128 × 1\` array, read at \`(e, 0)\`. -/
theorem colsArr128_apply (idx : Cols128 F) (e : Fin 128) :
    broadcastInDim S128x1 ![0] bcast_S128_S128x1_0 idx (ix2 e 0) = idx (ix1 e) := by
  unfold broadcastInDim
  refine congrArg idx (funext fun a => Fin.ext ?_)
  match a with
  | ⟨0, _⟩ => rfl

/-- Column numbers that are not negative are left alone by the normalisation. -/
theorem wrap128_eq (idx : Cols128 F) (h : ∀ j, 0 ≤ (idx j).toInt) : wrap128 idx = idx := by
  funext j
  unfold wrap128
  rw [select_apply]
  have hc : cmpi .slt idx (broadcastInDim S128 ![] bcast_S_S128 (constantI S_ 32 0#32)) j = 0#1 := by
    refine eq_zero_of_ne_one fun hc => ?_
    have h2 : IntOp.cmpi .slt (idx j) 0#32 = 1#1 := hc
    have h3 := IntOp.cmpi_slt.1 h2
    have h4 := h j
    rw [BitVec.toInt_zero] at h3
    omega
  rw [hc, select_zero]

/-- For column numbers between 0 and 447 the in-range mask is 1 at every column. -/
theorem mask128_eq_one (idx : Cols128 F) (h : ∀ j, 0 ≤ (idx j).toInt ∧ (idx j).toInt ≤ 447) (e : S128.Idx) :
    Host.reduce IntOp.andi
        (andi
          (cmpi .sge (broadcastInDim S128x1 ![0] bcast_S128_S128x1_0 idx)
            (broadcastInDim S128x1 ![] bcast_S_S128x1 (constantI S_ 32 0#32)))
          (cmpi .sle (broadcastInDim S128x1 ![0] bcast_S128_S128x1_0 idx)
            (broadcastInDim S128x1 ![0, 1] bcast_S1x1_S128x1_0_1
              (broadcastInDim S1x1 ![1] bcast_S1_S1x1_1 (constantI S1 32 447#32)))))
        (constantI S_ 1 1#1) reducesTo_S128x1_S128_d1 h_S_ e = 1#1 := by
  refine reduce_andi_of_all_one _ _ _ _ (fun _ => rfl) (fun i => ?_) e
  refine IntOp.andi_eq_one.2 ⟨?_, ?_⟩
  · refine IntOp.cmpi_sge.2 ?_
    show (0#32).toInt ≤ (idx _).toInt
    rw [BitVec.toInt_zero]; exact (h _).1
  · refine IntOp.cmpi_sle.2 ?_
    show (idx _).toInt ≤ (447#32).toInt
    rw [toInt_447]; exact (h _).2

/-- TAKING BACK 128 COLUMNS THAT WERE JUST PUT: for the column numbers \`off, off + 1, …, off + 127\` inside the
    448 columns, the take of the put at the same column numbers is what was put. -/
theorem take128_put128 (vals : Vals F) (idx : Cols128 F) (upd : Act128 F) (off : Nat) (hoff : off + 128 ≤ 448)
    (hidx : ∀ e : Fin 128, idx (ix1 e) = BitVec.ofNat 32 (off + e.val)) : take128 (put128 vals idx upd) idx = upd := by
  have hint : ∀ e : Fin 128, (idx (ix1 e)).toInt = ((off + e.val : Nat) : Int) := fun e => by
    rw [hidx e]; exact toInt_ofNat_lt (by have := e.isLt; omega)
  have hrange : ∀ j, 0 ≤ (idx j).toInt ∧ (idx j).toInt ≤ 447 := fun j => by
    obtain ⟨e, rfl⟩ : ∃ e : Fin 128, j = ix1 e := ⟨j 0, eq_ix1 j⟩
    rw [hint]
    have := e.isLt
    constructor <;> omega
  have hw : wrap128 idx = idx := wrap128_eq idx fun j => (hrange j).1
  unfold take128 put128
  rw [hw]
  funext j
  rw [select_apply]
  have hm : broadcastInDim S16384x128 ![1] bcast_S128_S16384x128_1
      (Host.reduce IntOp.andi
        (andi
          (cmpi .sge (broadcastInDim S128x1 ![0] bcast_S128_S128x1_0 idx)
            (broadcastInDim S128x1 ![] bcast_S_S128x1 (constantI S_ 32 0#32)))
          (cmpi .sle (broadcastInDim S128x1 ![0] bcast_S128_S128x1_0 idx)
            (broadcastInDim S128x1 ![0, 1] bcast_S1x1_S128x1_0_1
              (broadcastInDim S1x1 ![1] bcast_S1_S1x1_1 (constantI S1 32 447#32)))))
        (constantI S_ 1 1#1) reducesTo_S128x1_S128_d1 h_S_) j = 1#1 := mask128_eq_one idx hrange _
  rw [hm, select_one]
  exact congrFun (TakePutCols.gather_scatter_cols
    (scatter_S16384x448_S128x1_S16384x128_0_1_1_1_wf) (gather_S16384x448_S128x1_S16384x128_0_1_n_n_1_1_163841_wf)
    vals (broadcastInDim S128x1 ![0] bcast_S128_S128x1_0 idx) upd
    (fun e => ⟨off + e.val, by have := e.isLt; omega⟩)
    (fun a b hab => Fin.ext (by have := congrArg Fin.val hab; simp only at this; omega))
    (fun e => by rw [colsArr128_apply, hint])) j

/-! ## 64 columns -/

/-- The column numbers as an \`64 × 1\` array, read at \`(e, 0)\`. -/
theorem colsArr64_apply (idx : Cols64 F) (e : Fin 64) :
    broadcastInDim S64x1 ![0] bcast_S64_S64x1_0 idx (ix2 e 0) = idx (ix1 e) := by
  unfold broadcastInDim
  refine congrArg idx (funext fun a => Fin.ext ?_)
  match a with
  | ⟨0, _⟩ => rfl

/-- Column numbers that are not negative are left alone by the normalisation. -/
theorem wrap64_eq (idx : Cols64 F) (h : ∀ j, 0 ≤ (idx j).toInt) : wrap64 idx = idx := by
  funext j
  unfold wrap64
  rw [select_apply]
  have hc : cmpi .slt idx (broadcastInDim S64 ![] bcast_S_S64 (constantI S_ 32 0#32)) j = 0#1 := by
    refine eq_zero_of_ne_one fun hc => ?_
    have h2 : IntOp.cmpi .slt (idx j) 0#32 = 1#1 := hc
    have h3 := IntOp.cmpi_slt.1 h2
    have h4 := h j
    rw [BitVec.toInt_zero] at h3
    omega
  rw [hc, select_zero]

/-- For column numbers between 0 and 447 the in-range mask is 1 at every column. -/
theorem mask64_eq_one (idx : Cols64 F) (h : ∀ j, 0 ≤ (idx j).toInt ∧ (idx j).toInt ≤ 447) (e : S64.Idx) :
    Host.reduce IntOp.andi
        (andi
          (cmpi .sge (broadcastInDim S64x1 ![0] bcast_S64_S64x1_0 idx)
            (broadcastInDim S64x1 ![] bcast_S_S64x1 (constantI S_ 32 0#32)))
          (cmpi .sle (broadcastInDim S64x1 ![0] bcast_S64_S64x1_0 idx)
            (broadcastInDim S64x1 ![0, 1] bcast_S1x1_S64x1_0_1
              (broadcastInDim S1x1 ![1] bcast_S1_S1x1_1 (constantI S1 32 447#32)))))
        (constantI S_ 1 1#1) reducesTo_S64x1_S64_d1 h_S_ e = 1#1 := by
  refine reduce_andi_of_all_one _ _ _ _ (fun _ => rfl) (fun i => ?_) e
  refine IntOp.andi_eq_one.2 ⟨?_, ?_⟩
  · refine IntOp.cmpi_sge.2 ?_
    show (0#32).toInt ≤ (idx _).toInt
    rw [BitVec.toInt_zero]; exact (h _).1
  · refine IntOp.cmpi_sle.2 ?_
    show (idx _).toInt ≤ (447#32).toInt
    rw [toInt_447]; exact (h _).2

/-- TAKING BACK 64 COLUMNS THAT WERE JUST PUT: for the column numbers \`off, off + 1, …, off + 63\` inside the
    448 columns, the take of the put at the same column numbers is what was put. -/
theorem take64_put64 (vals : Vals F) (idx : Cols64 F) (upd : Act64 F) (off : Nat) (hoff : off + 64 ≤ 448)
    (hidx : ∀ e : Fin 64, idx (ix1 e) = BitVec.ofNat 32 (off + e.val)) : take64 (put64 vals idx upd) idx = upd := by
  have hint : ∀ e : Fin 64, (idx (ix1 e)).toInt = ((off + e.val : Nat) : Int) := fun e => by
    rw [hidx e]; exact toInt_ofNat_lt (by have := e.isLt; omega)
  have hrange : ∀ j, 0 ≤ (idx j).toInt ∧ (idx j).toInt ≤ 447 := fun j => by
    obtain ⟨e, rfl⟩ : ∃ e : Fin 64, j = ix1 e := ⟨j 0, eq_ix1 j⟩
    rw [hint]
    have := e.isLt
    constructor <;> omega
  have hw : wrap64 idx = idx := wrap64_eq idx fun j => (hrange j).1
  unfold take64 put64
  rw [hw]
  funext j
  rw [select_apply]
  have hm : broadcastInDim S16384x64 ![1] bcast_S64_S16384x64_1
      (Host.reduce IntOp.andi
        (andi
          (cmpi .sge (broadcastInDim S64x1 ![0] bcast_S64_S64x1_0 idx)
            (broadcastInDim S64x1 ![] bcast_S_S64x1 (constantI S_ 32 0#32)))
          (cmpi .sle (broadcastInDim S64x1 ![0] bcast_S64_S64x1_0 idx)
            (broadcastInDim S64x1 ![0, 1] bcast_S1x1_S64x1_0_1
              (broadcastInDim S1x1 ![1] bcast_S1_S1x1_1 (constantI S1 32 447#32)))))
        (constantI S_ 1 1#1) reducesTo_S64x1_S64_d1 h_S_) j = 1#1 := mask64_eq_one idx hrange _
  rw [hm, select_one]
  exact congrFun (TakePutCols.gather_scatter_cols
    (scatter_S16384x448_S64x1_S16384x64_0_1_1_1_wf) (gather_S16384x448_S64x1_S16384x64_0_1_n_n_1_1_163841_wf)
    vals (broadcastInDim S64x1 ![0] bcast_S64_S64x1_0 idx) upd
    (fun e => ⟨off + e.val, by have := e.isLt; omega⟩)
    (fun a b hab => Fin.ext (by have := congrArg Fin.val hab; simp only at this; omega))
    (fun e => by rw [colsArr64_apply, hint])) j

/-! ## The column ranges -/

theorem colsIn_apply (e : Fin 128) : (colsIn (F := F)) (ix1 e) = BitVec.ofNat 32 (0 + e.val) := by
  rw [Nat.zero_add]; rfl

theorem colsH1_apply (e : Fin 128) : (colsH1 (F := F)) (ix1 e) = BitVec.ofNat 32 (128 + e.val) := by
  show (128#32 : BitVec 32) + BitVec.ofNat 32 e.val = BitVec.ofNat 32 (128 + e.val)
  rw [BitVec.ofNat_add]

theorem colsH2_apply (e : Fin 128) : (colsH2 (F := F)) (ix1 e) = BitVec.ofNat 32 (256 + e.val) := by
  show (256#32 : BitVec 32) + BitVec.ofNat 32 e.val = BitVec.ofNat 32 (256 + e.val)
  rw [BitVec.ofNat_add]

theorem colsOut_apply (e : Fin 64) : (colsOut (F := F)) (ix1 e) = BitVec.ofNat 32 (384 + e.val) := by
  show (384#32 : BitVec 32) + BitVec.ofNat 32 e.val = BitVec.ofNat 32 (384 + e.val)
  rw [BitVec.ofNat_add]

/-! ## The result -/

/-- THE REFERENCE'S RESULT IS THREE MASKED DENSE LAYERS APPLIED TO THE INPUTS: every take returns what the put before
    it stored, so the buffer of activations drops out. -/
theorem result_eq_layers (x : Act128 F) (W1 : (⟨S128x128, .f32⟩ : BufTy).Contents (Elt F))
    (b1 : (⟨S128, .f32⟩ : BufTy).Contents (Elt F)) (M1 : (⟨S128x128, .f32⟩ : BufTy).Contents (Elt F))
    (W2 : (⟨S128x128, .f32⟩ : BufTy).Contents (Elt F)) (b2 : (⟨S128, .f32⟩ : BufTy).Contents (Elt F))
    (M2 : (⟨S128x128, .f32⟩ : BufTy).Contents (Elt F))
    (W3 : (⟨S64x128, .f32⟩ : BufTy).Contents (Elt F)) (b3 : (⟨S64, .f32⟩ : BufTy).Contents (Elt F))
    (M3 : (⟨S64x128, .f32⟩ : BufTy).Contents (Elt F)) :
    result x W1 b1 M1 W2 b2 M2 W3 b3 M3 = dense64 (dense128 (dense128 x W1 M1 b1) W2 M2 b2) W3 M3 b3 := by
  unfold result
  rw [take64_put64 _ _ _ 384 (by omega) colsOut_apply]
  unfold outputs valsH2
  rw [take128_put128 _ _ _ 256 (by omega) colsH2_apply]
  unfold hidden2 valsH1
  rw [take128_put128 _ _ _ 128 (by omega) colsH1_apply]
  unfold hidden1 valsIn
  rw [take128_put128 _ _ _ 0 (by omega) colsIn_apply]

end Cert.ReferenceIdeal.RefValue

end
-- ==== Proof.RefRun.Ops.lean ====
/-
  The reference program's host operations, in order, as lists: the outlined functions' operations are listed
  inline at each call over that call's buffer record. The list is cut into twelve stretches that follow the
  program's stages: the four index vectors and the zero buffer; then, per layer, the put (the index
  normalisation, its broadcast, the scatter), the take (the gather guarded by the in-range mask) and the
  dense layer (the masked weights transposed, the contraction, the bias, the rectifier); last the put and
  take of the outputs. @main is the straight line of their concatenation, and its run ends with every
  buffer at the fold of the operations' results over the launch contents.
-/
import proofs.«107552_g58299886076360_cont_9to1_m_691_22_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The zero buffer and the four vectors of column numbers. -/
abbrev sIdx : List (HloOp τ sig (Elt F)) :=
  [ nullary main_cst (constant S_ .f32 0x00000000#32),
    unary main_cst main_v0 (broadcastInDim S16384x448 ![] bcast_S_S16384x448 : (⟨S_, .f32⟩ : BufTy).Contents (Elt F) → (⟨S16384x448, .f32⟩ : BufTy).Contents (Elt F)),
    nullary main_v1 (iotaInDim S128 32 0),
    nullary main_v2 (iotaInDim S128 32 0),
    nullary main_c (constantI S_ 32 128#32),
    unary main_c main_v3 (broadcastInDim S128 ![] bcast_S_S128 : (⟨S_, .i32⟩ : BufTy).Contents (Elt F) → (⟨S128, .i32⟩ : BufTy).Contents (Elt F)),
    binary main_v3 main_v2 main_v4 (addi : (⟨S128, .i32⟩ : BufTy).Contents (Elt F) → (⟨S128, .i32⟩ : BufTy).Contents (Elt F) → (⟨S128, .i32⟩ : BufTy).Contents (Elt F)),
    nullary main_v5 (iotaInDim S128 32 0),
    nullary main_c_0 (constantI S_ 32 256#32),
    unary main_c_0 main_v6 (broadcastInDim S128 ![] bcast_S_S128 : (⟨S_, .i32⟩ : BufTy).Contents (Elt F) → (⟨S128, .i32⟩ : BufTy).Contents (Elt F)),
    binary main_v6 main_v5 main_v7 (addi : (⟨S128, .i32⟩ : BufTy).Contents (Elt F) → (⟨S128, .i32⟩ : BufTy).Contents (Elt F) → (⟨S128, .i32⟩ : BufTy).Contents (Elt F)),
    nullary main_v8 (iotaInDim S64 32 0),
    nullary main_c_1 (constantI S_ 32 384#32),
    unary main_c_1 main_v9 (broadcastInDim S64 ![] bcast_S_S64 : (⟨S_, .i32⟩ : BufTy).Contents (Elt F) → (⟨S64, .i32⟩ : BufTy).Contents (Elt F)),
    binary main_v9 main_v8 main_v10 (addi : (⟨S64, .i32⟩ : BufTy).Contents (Elt F) → (⟨S64, .i32⟩ : BufTy).Contents (Elt F) → (⟨S64, .i32⟩ : BufTy).Contents (Elt F)) ]
/-- The buffers those operations write. -/
abbrev sIdx_W : List (Ref sig .tc) := [main_cst, main_v0, main_v1, main_v2, main_c, main_v3, main_v4, main_v5, main_c_0, main_v6, main_v7, main_v8, main_c_1, main_v9, main_v10]

/-- The inputs put into columns 0…127 of the zero buffer. -/
abbrev sPut0 : List (HloOp τ sig (Elt F)) :=
  [ nullary main_c_2 (constantI S_ 32 0#32),
    unary main_c_2 main_v11 (broadcastInDim S128 ![] bcast_S_S128 : (⟨S_, .i32⟩ : BufTy).Contents (Elt F) → (⟨S128, .i32⟩ : BufTy).Contents (Elt F)),
    binary main_v1 main_v11 main_v12 (cmpi .slt : (⟨S128, .i32⟩ : BufTy).Contents (Elt F) → (⟨S128, .i32⟩ : BufTy).Contents (Elt F) → (⟨S128, .i1⟩ : BufTy).Contents (Elt F)),
    nullary main_c_3 (constantI S_ 32 448#32),
    unary main_c_3 main_v13 (broadcastInDim S128 ![] bcast_S_S128 : (⟨S_, .i32⟩ : BufTy).Contents (Elt F) → (⟨S128, .i32⟩ : BufTy).Contents (Elt F)),
    binary main_v1 main_v13 main_v14 (addi : (⟨S128, .i32⟩ : BufTy).Contents (Elt F) → (⟨S128, .i32⟩ : BufTy).Contents (Elt F) → (⟨S128, .i32⟩ : BufTy).Contents (Elt F)),
    ternary main_v12 main_v14 main_v1 main_v15 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v15 main_v16 (broadcastInDim S128x1 ![0] bcast_S128_S128x1_0 : (⟨S128, .i32⟩ : BufTy).Contents (Elt F) → (⟨S128x1, .i32⟩ : BufTy).Contents (Elt F)),
    ternary main_v0 main_v16 main_arg0 main_v17 ((fun x i u => Host.scatter scatter_S16384x448_S128x1_S16384x128_0_1_1_1 (fun _ b => b) x i u) : (⟨S16384x448, .f32⟩ : BufTy).Contents (Elt F) → (⟨S128x1, .i32⟩ : BufTy).Contents (Elt F) → (⟨S16384x128, .f32⟩ : BufTy).Contents (Elt F) → (⟨S16384x448, .f32⟩ : BufTy).Contents (Elt F)) ]
/-- The buffers those operations write. -/
abbrev sPut0_W : List (Ref sig .tc) := [main_c_2, main_v11, main_v12, main_c_3, main_v13, main_v14, main_v15, main_v16, main_v17]

/-- Columns 0…127 taken back. -/
abbrev sTake0 : List (HloOp τ sig (Elt F)) :=
  [ TRef.nullary main_call0.c (constantI S_ 32 0#32),
    TRef.unary main_call0.c main_call0.v0 (broadcastInDim S128 ![] bcast_S_S128),
    TRef.binary (TRef.of (T := ⟨S128, .i32⟩) main_v1) main_call0.v0 main_call0.v1 (cmpi .slt),
    TRef.nullary main_call0.c_0 (constantI S_ 32 448#32),
    TRef.unary main_call0.c_0 main_call0.v2 (broadcastInDim S128 ![] bcast_S_S128),
    TRef.binary (TRef.of (T := ⟨S128, .i32⟩) main_v1) main_call0.v2 main_call0.v3 addi,
    TRef.ternary main_call0.v1 main_call0.v3 (TRef.of (T := ⟨S128, .i32⟩) main_v1) main_call0.call0.v0 select,
    TRef.unary main_call0.call0.v0 main_call0.v5 (broadcastInDim S128x1 ![0] bcast_S128_S128x1_0),
    TRef.nullary main_call0.c_1 (constantI S1 32 447#32),
    TRef.nullary main_call0.c_2 (constantI S_ 32 0#32),
    TRef.unary main_call0.c_2 main_call0.v6 (broadcastInDim S128x1 ![] bcast_S_S128x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S128x1 ![0, 1] bcast_S1x1_S128x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S128x1_S128_d1 h_S_),
    TRef.binary (TRef.of (T := ⟨S16384x448, .f32⟩) main_v17) main_call0.v5 main_call0.v13 (fun x i => Host.gather gather_S16384x448_S128x1_S16384x128_0_1_n_n_1_1_163841 x i),
    TRef.unary main_call0.v12 main_call0.v14 (broadcastInDim S16384x128 ![1] bcast_S128_S16384x128_1),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]
/-- The buffers those operations write. -/
abbrev sTake0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v18]

/-- The first dense layer. -/
abbrev sDense0 : List (HloOp τ sig (Elt F)) :=
  [ binary main_arg1 main_arg3 main_v19 (mulf : (⟨S128x128, .f32⟩ : BufTy).Contents (Elt F) → (⟨S128x128, .f32⟩ : BufTy).Contents (Elt F) → (⟨S128x128, .f32⟩ : BufTy).Contents (Elt F)),
    unary main_v19 main_v20 ((transpose S128x128 [1, 0] · transposes_S128x128_S128x128_1_0) : (⟨S128x128, .f32⟩ : BufTy).Contents (Elt F) → (⟨S128x128, .f32⟩ : BufTy).Contents (Elt F)),
    binary main_v18 main_v20 main_v21 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg2 main_v22 (broadcastInDim S1x128 ![1] bcast_S128_S1x128_1 : (⟨S128, .f32⟩ : BufTy).Contents (Elt F) → (⟨S1x128, .f32⟩ : BufTy).Contents (Elt F)),
    unary main_v22 main_v23 (broadcastInDim S16384x128 ![0, 1] bcast_S1x128_S16384x128_0_1 : (⟨S1x128, .f32⟩ : BufTy).Contents (Elt F) → (⟨S16384x128, .f32⟩ : BufTy).Contents (Elt F)),
    binary main_v21 main_v23 main_v24 (addf : (⟨S16384x128, .f32⟩ : BufTy).Contents (Elt F) → (⟨S16384x128, .f32⟩ : BufTy).Contents (Elt F) → (⟨S16384x128, .f32⟩ : BufTy).Contents (Elt F)),
    TRef.nullary main_call1.cst (constant S_ .f32 0x00000000#32),
    TRef.unary main_call1.cst main_call1.v0 (broadcastInDim S16384x128 ![] bcast_S_S16384x128),
    TRef.binary (TRef.of (T := ⟨S16384x128, .f32⟩) main_v24) main_call1.v0 main_call1.v1 maximumf ]
/-- The buffers those operations write. -/
abbrev sDense0_W : List (Ref sig .tc) := [main_v19, main_v20, main_v21, main_v22, main_v23, main_v24, main_call1_cst, main_call1_v0, main_v25]

/-- The first hidden layer put into columns 128…255. -/
abbrev sPut1 : List (HloOp τ sig (Elt F)) :=
  [ nullary main_c_4 (constantI S_ 32 0#32),
    unary main_c_4 main_v26 (broadcastInDim S128 ![] bcast_S_S128 : (⟨S_, .i32⟩ : BufTy).Contents (Elt F) → (⟨S128, .i32⟩ : BufTy).Contents (Elt F)),
    binary main_v4 main_v26 main_v27 (cmpi .slt : (⟨S128, .i32⟩ : BufTy).Contents (Elt F) → (⟨S128, .i32⟩ : BufTy).Contents (Elt F) → (⟨S128, .i1⟩ : BufTy).Contents (Elt F)),
    nullary main_c_5 (constantI S_ 32 448#32),
    unary main_c_5 main_v28 (broadcastInDim S128 ![] bcast_S_S128 : (⟨S_, .i32⟩ : BufTy).Contents (Elt F) → (⟨S128, .i32⟩ : BufTy).Contents (Elt F)),
    binary main_v4 main_v28 main_v29 (addi : (⟨S128, .i32⟩ : BufTy).Contents (Elt F) → (⟨S128, .i32⟩ : BufTy).Contents (Elt F) → (⟨S128, .i32⟩ : BufTy).Contents (Elt F)),
    ternary main_v27 main_v29 main_v4 main_v30 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v30 main_v31 (broadcastInDim S128x1 ![0] bcast_S128_S128x1_0 : (⟨S128, .i32⟩ : BufTy).Contents (Elt F) → (⟨S128x1, .i32⟩ : BufTy).Contents (Elt F)),
    ternary main_v17 main_v31 main_v25 main_v32 ((fun x i u => Host.scatter scatter_S16384x448_S128x1_S16384x128_0_1_1_1 (fun _ b => b) x i u) : (⟨S16384x448, .f32⟩ : BufTy).Contents (Elt F) → (⟨S128x1, .i32⟩ : BufTy).Contents (Elt F) → (⟨S16384x128, .f32⟩ : BufTy).Contents (Elt F) → (⟨S16384x448, .f32⟩ : BufTy).Contents (Elt F)) ]
/-- The buffers those operations write. -/
abbrev sPut1_W : List (Ref sig .tc) := [main_c_4, main_v26, main_v27, main_c_5, main_v28, main_v29, main_v30, main_v31, main_v32]

/-- Columns 128…255 taken back. -/
abbrev sTake1 : List (HloOp τ sig (Elt F)) :=
  [ TRef.nullary main_call2.c (constantI S_ 32 0#32),
    TRef.unary main_call2.c main_call2.v0 (broadcastInDim S128 ![] bcast_S_S128),
    TRef.binary (TRef.of (T := ⟨S128, .i32⟩) main_v4) main_call2.v0 main_call2.v1 (cmpi .slt),
    TRef.nullary main_call2.c_0 (constantI S_ 32 448#32),
    TRef.unary main_call2.c_0 main_call2.v2 (broadcastInDim S128 ![] bcast_S_S128),
    TRef.binary (TRef.of (T := ⟨S128, .i32⟩) main_v4) main_call2.v2 main_call2.v3 addi,
    TRef.ternary main_call2.v1 main_call2.v3 (TRef.of (T := ⟨S128, .i32⟩) main_v4) main_call2.call0.v0 select,
    TRef.unary main_call2.call0.v0 main_call2.v5 (broadcastInDim S128x1 ![0] bcast_S128_S128x1_0),
    TRef.nullary main_call2.c_1 (constantI S1 32 447#32),
    TRef.nullary main_call2.c_2 (constantI S_ 32 0#32),
    TRef.unary main_call2.c_2 main_call2.v6 (broadcastInDim S128x1 ![] bcast_S_S128x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S128x1 ![0, 1] bcast_S1x1_S128x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S128x1_S128_d1 h_S_),
    TRef.binary (TRef.of (T := ⟨S16384x448, .f32⟩) main_v32) main_call2.v5 main_call2.v13 (fun x i => Host.gather gather_S16384x448_S128x1_S16384x128_0_1_n_n_1_1_163841 x i),
    TRef.unary main_call2.v12 main_call2.v14 (broadcastInDim S16384x128 ![1] bcast_S128_S16384x128_1),
    TRef.nullary main_call2.cst (constant S_ .f32 0x7FC00000#32),
    TRef.unary main_call2.cst main_call2.v15 (broadcastInDim S16384x128 ![] bcast_S_S16384x128),
    TRef.ternary main_call2.v14 main_call2.v13 main_call2.v15 main_call2.v16 select ]
/-- The buffers those operations write. -/
abbrev sTake1_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v33]

/-- The second dense layer. -/
abbrev sDense1 : List (HloOp τ sig (Elt F)) :=
  [ binary main_arg4 main_arg6 main_v34 (mulf : (⟨S128x128, .f32⟩ : BufTy).Contents (Elt F) → (⟨S128x128, .f32⟩ : BufTy).Contents (Elt F) → (⟨S128x128, .f32⟩ : BufTy).Contents (Elt F)),
    unary main_v34 main_v35 ((transpose S128x128 [1, 0] · transposes_S128x128_S128x128_1_0) : (⟨S128x128, .f32⟩ : BufTy).Contents (Elt F) → (⟨S128x128, .f32⟩ : BufTy).Contents (Elt F)),
    binary main_v33 main_v35 main_v36 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_v37 (broadcastInDim S1x128 ![1] bcast_S128_S1x128_1 : (⟨S128, .f32⟩ : BufTy).Contents (Elt F) → (⟨S1x128, .f32⟩ : BufTy).Contents (Elt F)),
    unary main_v37 main_v38 (broadcastInDim S16384x128 ![0, 1] bcast_S1x128_S16384x128_0_1 : (⟨S1x128, .f32⟩ : BufTy).Contents (Elt F) → (⟨S16384x128, .f32⟩ : BufTy).Contents (Elt F)),
    binary main_v36 main_v38 main_v39 (addf : (⟨S16384x128, .f32⟩ : BufTy).Contents (Elt F) → (⟨S16384x128, .f32⟩ : BufTy).Contents (Elt F) → (⟨S16384x128, .f32⟩ : BufTy).Contents (Elt F)),
    TRef.nullary main_call3.cst (constant S_ .f32 0x00000000#32),
    TRef.unary main_call3.cst main_call3.v0 (broadcastInDim S16384x128 ![] bcast_S_S16384x128),
    TRef.binary (TRef.of (T := ⟨S16384x128, .f32⟩) main_v39) main_call3.v0 main_call3.v1 maximumf ]
/-- The buffers those operations write. -/
abbrev sDense1_W : List (Ref sig .tc) := [main_v34, main_v35, main_v36, main_v37, main_v38, main_v39, main_call3_cst, main_call3_v0, main_v40]

/-- The second hidden layer put into columns 256…383. -/
abbrev sPut2 : List (HloOp τ sig (Elt F)) :=
  [ nullary main_c_6 (constantI S_ 32 0#32),
    unary main_c_6 main_v41 (broadcastInDim S128 ![] bcast_S_S128 : (⟨S_, .i32⟩ : BufTy).Contents (Elt F) → (⟨S128, .i32⟩ : BufTy).Contents (Elt F)),
    binary main_v7 main_v41 main_v42 (cmpi .slt : (⟨S128, .i32⟩ : BufTy).Contents (Elt F) → (⟨S128, .i32⟩ : BufTy).Contents (Elt F) → (⟨S128, .i1⟩ : BufTy).Contents (Elt F)),
    nullary main_c_7 (constantI S_ 32 448#32),
    unary main_c_7 main_v43 (broadcastInDim S128 ![] bcast_S_S128 : (⟨S_, .i32⟩ : BufTy).Contents (Elt F) → (⟨S128, .i32⟩ : BufTy).Contents (Elt F)),
    binary main_v7 main_v43 main_v44 (addi : (⟨S128, .i32⟩ : BufTy).Contents (Elt F) → (⟨S128, .i32⟩ : BufTy).Contents (Elt F) → (⟨S128, .i32⟩ : BufTy).Contents (Elt F)),
    ternary main_v42 main_v44 main_v7 main_v45 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v45 main_v46 (broadcastInDim S128x1 ![0] bcast_S128_S128x1_0 : (⟨S128, .i32⟩ : BufTy).Contents (Elt F) → (⟨S128x1, .i32⟩ : BufTy).Contents (Elt F)),
    ternary main_v32 main_v46 main_v40 main_v47 ((fun x i u => Host.scatter scatter_S16384x448_S128x1_S16384x128_0_1_1_1 (fun _ b => b) x i u) : (⟨S16384x448, .f32⟩ : BufTy).Contents (Elt F) → (⟨S128x1, .i32⟩ : BufTy).Contents (Elt F) → (⟨S16384x128, .f32⟩ : BufTy).Contents (Elt F) → (⟨S16384x448, .f32⟩ : BufTy).Contents (Elt F)) ]
/-- The buffers those operations write. -/
abbrev sPut2_W : List (Ref sig .tc) := [main_c_6, main_v41, main_v42, main_c_7, main_v43, main_v44, main_v45, main_v46, main_v47]

/-- Columns 256…383 taken back. -/
abbrev sTake2 : List (HloOp τ sig (Elt F)) :=
  [ TRef.nullary main_call4.c (constantI S_ 32 0#32),
    TRef.unary main_call4.c main_call4.v0 (broadcastInDim S128 ![] bcast_S_S128),
    TRef.binary (TRef.of (T := ⟨S128, .i32⟩) main_v7) main_call4.v0 main_call4.v1 (cmpi .slt),
    TRef.nullary main_call4.c_0 (constantI S_ 32 448#32),
    TRef.unary main_call4.c_0 main_call4.v2 (broadcastInDim S128 ![] bcast_S_S128),
    TRef.binary (TRef.of (T := ⟨S128, .i32⟩) main_v7) main_call4.v2 main_call4.v3 addi,
    TRef.ternary main_call4.v1 main_call4.v3 (TRef.of (T := ⟨S128, .i32⟩) main_v7) main_call4.call0.v0 select,
    TRef.unary main_call4.call0.v0 main_call4.v5 (broadcastInDim S128x1 ![0] bcast_S128_S128x1_0),
    TRef.nullary main_call4.c_1 (constantI S1 32 447#32),
    TRef.nullary main_call4.c_2 (constantI S_ 32 0#32),
    TRef.unary main_call4.c_2 main_call4.v6 (broadcastInDim S128x1 ![] bcast_S_S128x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S128x1 ![0, 1] bcast_S1x1_S128x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S128x1_S128_d1 h_S_),
    TRef.binary (TRef.of (T := ⟨S16384x448, .f32⟩) main_v47) main_call4.v5 main_call4.v13 (fun x i => Host.gather gather_S16384x448_S128x1_S16384x128_0_1_n_n_1_1_163841 x i),
    TRef.unary main_call4.v12 main_call4.v14 (broadcastInDim S16384x128 ![1] bcast_S128_S16384x128_1),
    TRef.nullary main_call4.cst (constant S_ .f32 0x7FC00000#32),
    TRef.unary main_call4.cst main_call4.v15 (broadcastInDim S16384x128 ![] bcast_S_S16384x128),
    TRef.ternary main_call4.v14 main_call4.v13 main_call4.v15 main_call4.v16 select ]
/-- The buffers those operations write. -/
abbrev sTake2_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v48]

/-- The output layer. -/
abbrev sDense2 : List (HloOp τ sig (Elt F)) :=
  [ binary main_arg7 main_arg9 main_v49 (mulf : (⟨S64x128, .f32⟩ : BufTy).Contents (Elt F) → (⟨S64x128, .f32⟩ : BufTy).Contents (Elt F) → (⟨S64x128, .f32⟩ : BufTy).Contents (Elt F)),
    unary main_v49 main_v50 ((transpose S128x64 [1, 0] · transposes_S64x128_S128x64_1_0) : (⟨S64x128, .f32⟩ : BufTy).Contents (Elt F) → (⟨S128x64, .f32⟩ : BufTy).Contents (Elt F)),
    binary main_v48 main_v50 main_v51 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg8 main_v52 (broadcastInDim S1x64 ![1] bcast_S64_S1x64_1 : (⟨S64, .f32⟩ : BufTy).Contents (Elt F) → (⟨S1x64, .f32⟩ : BufTy).Contents (Elt F)),
    unary main_v52 main_v53 (broadcastInDim S16384x64 ![0, 1] bcast_S1x64_S16384x64_0_1 : (⟨S1x64, .f32⟩ : BufTy).Contents (Elt F) → (⟨S16384x64, .f32⟩ : BufTy).Contents (Elt F)),
    binary main_v51 main_v53 main_v54 (addf : (⟨S16384x64, .f32⟩ : BufTy).Contents (Elt F) → (⟨S16384x64, .f32⟩ : BufTy).Contents (Elt F) → (⟨S16384x64, .f32⟩ : BufTy).Contents (Elt F)),
    TRef.nullary main_call5.cst (constant S_ .f32 0x00000000#32),
    TRef.unary main_call5.cst main_call5.v0 (broadcastInDim S16384x64 ![] bcast_S_S16384x64),
    TRef.binary (TRef.of (T := ⟨S16384x64, .f32⟩) main_v54) main_call5.v0 main_call5.v1 maximumf ]
/-- The buffers those operations write. -/
abbrev sDense2_W : List (Ref sig .tc) := [main_v49, main_v50, main_v51, main_v52, main_v53, main_v54, main_call5_cst, main_call5_v0, main_v55]

/-- The outputs put into columns 384…447. -/
abbrev sPut3 : List (HloOp τ sig (Elt F)) :=
  [ nullary main_c_8 (constantI S_ 32 0#32),
    unary main_c_8 main_v56 (broadcastInDim S64 ![] bcast_S_S64 : (⟨S_, .i32⟩ : BufTy).Contents (Elt F) → (⟨S64, .i32⟩ : BufTy).Contents (Elt F)),
    binary main_v10 main_v56 main_v57 (cmpi .slt : (⟨S64, .i32⟩ : BufTy).Contents (Elt F) → (⟨S64, .i32⟩ : BufTy).Contents (Elt F) → (⟨S64, .i1⟩ : BufTy).Contents (Elt F)),
    nullary main_c_9 (constantI S_ 32 448#32),
    unary main_c_9 main_v58 (broadcastInDim S64 ![] bcast_S_S64 : (⟨S_, .i32⟩ : BufTy).Contents (Elt F) → (⟨S64, .i32⟩ : BufTy).Contents (Elt F)),
    binary main_v10 main_v58 main_v59 (addi : (⟨S64, .i32⟩ : BufTy).Contents (Elt F) → (⟨S64, .i32⟩ : BufTy).Contents (Elt F) → (⟨S64, .i32⟩ : BufTy).Contents (Elt F)),
    ternary main_v57 main_v59 main_v10 main_v60 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v60 main_v61 (broadcastInDim S64x1 ![0] bcast_S64_S64x1_0 : (⟨S64, .i32⟩ : BufTy).Contents (Elt F) → (⟨S64x1, .i32⟩ : BufTy).Contents (Elt F)),
    ternary main_v47 main_v61 main_v55 main_v62 ((fun x i u => Host.scatter scatter_S16384x448_S64x1_S16384x64_0_1_1_1 (fun _ b => b) x i u) : (⟨S16384x448, .f32⟩ : BufTy).Contents (Elt F) → (⟨S64x1, .i32⟩ : BufTy).Contents (Elt F) → (⟨S16384x64, .f32⟩ : BufTy).Contents (Elt F) → (⟨S16384x448, .f32⟩ : BufTy).Contents (Elt F)) ]
/-- The buffers those operations write. -/
abbrev sPut3_W : List (Ref sig .tc) := [main_c_8, main_v56, main_v57, main_c_9, main_v58, main_v59, main_v60, main_v61, main_v62]

/-- Columns 384…447 taken back: the result. -/
abbrev sTake3 : List (HloOp τ sig (Elt F)) :=
  [ TRef.nullary main_call6.c (constantI S_ 32 0#32),
    TRef.unary main_call6.c main_call6.v0 (broadcastInDim S64 ![] bcast_S_S64),
    TRef.binary (TRef.of (T := ⟨S64, .i32⟩) main_v10) main_call6.v0 main_call6.v1 (cmpi .slt),
    TRef.nullary main_call6.c_0 (constantI S_ 32 448#32),
    TRef.unary main_call6.c_0 main_call6.v2 (broadcastInDim S64 ![] bcast_S_S64),
    TRef.binary (TRef.of (T := ⟨S64, .i32⟩) main_v10) main_call6.v2 main_call6.v3 addi,
    TRef.ternary main_call6.v1 main_call6.v3 (TRef.of (T := ⟨S64, .i32⟩) main_v10) main_call6.call0.v0 select,
    TRef.unary main_call6.call0.v0 main_call6.v5 (broadcastInDim S64x1 ![0] bcast_S64_S64x1_0),
    TRef.nullary main_call6.c_1 (constantI S1 32 447#32),
    TRef.nullary main_call6.c_2 (constantI S_ 32 0#32),
    TRef.unary main_call6.c_2 main_call6.v6 (broadcastInDim S64x1 ![] bcast_S_S64x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S64x1 ![0, 1] bcast_S1x1_S64x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S64x1_S64_d1 h_S_),
    TRef.binary (TRef.of (T := ⟨S16384x448, .f32⟩) main_v62) main_call6.v5 main_call6.v13 (fun x i => Host.gather gather_S16384x448_S64x1_S16384x64_0_1_n_n_1_1_163841 x i),
    TRef.unary main_call6.v12 main_call6.v14 (broadcastInDim S16384x64 ![1] bcast_S64_S16384x64_1),
    TRef.nullary main_call6.cst (constant S_ .f32 0x7FC00000#32),
    TRef.unary main_call6.cst main_call6.v15 (broadcastInDim S16384x64 ![] bcast_S_S16384x64),
    TRef.ternary main_call6.v14 main_call6.v13 main_call6.v15 main_call6.v16 select ]
/-- The buffers those operations write. -/
abbrev sTake3_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v63]

/-- @main's 170 operations, in order. -/
abbrev ops : List (HloOp τ sig (Elt F)) :=
  sIdx ++ sPut0 ++ sTake0 ++ sDense0 ++ sPut1 ++ sTake1 ++ sDense1 ++ sPut2 ++ sTake2 ++ sDense2 ++ sPut3 ++ sTake3

-- the two sides are the same tree of requests once the calls are unfolded: sequencing computes on a program that is a literal
set_option maxRecDepth 100000 in
/-- @main is that straight line: its two windows in order, each outlined function's body at its call. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and determines its results: stretch by stretch, then joined. -/

theorem sIdx_sub : (sIdx : List (HloOp τ sig (Elt F))).Forall fun op => op.bufs ⊆ tcRefs τ sig :=
  ⟨nullary_bufs_sub .., unary_bufs_sub .., nullary_bufs_sub .., nullary_bufs_sub .., nullary_bufs_sub .., unary_bufs_sub ..,
    binary_bufs_sub .., nullary_bufs_sub .., nullary_bufs_sub .., unary_bufs_sub .., binary_bufs_sub .., nullary_bufs_sub ..,
    nullary_bufs_sub .., unary_bufs_sub .., binary_bufs_sub ..⟩
theorem sIdx_fresh : (sIdx : List (HloOp τ sig (Elt F))).Forall fun op => op.fresh = ∅ :=
  ⟨rfl, rfl, rfl, rfl, rfl, rfl, rfl, rfl, rfl, rfl, rfl, rfl, rfl, rfl, rfl⟩

theorem sPut0_sub : (sPut0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., ternary_bufs_sub ..⟩
theorem sPut0_fresh : (sPut0 : List (HloOp τ sig (Elt F))).Forall fun op => op.fresh = ∅ :=
  ⟨rfl, rfl, rfl, rfl, rfl, rfl, rfl, rfl, rfl⟩

theorem sTake0_sub : (sTake0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem sTake0_fresh : (sTake0 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl⟩

theorem sDense0_sub : (sDense0 : List (HloOp τ sig (Elt F))).Forall fun op => op.bufs ⊆ tcRefs τ sig :=
  ⟨binary_bufs_sub .., unary_bufs_sub .., binary_bufs_sub .., unary_bufs_sub .., unary_bufs_sub .., binary_bufs_sub ..,
    nullary_bufs_sub .., unary_bufs_sub .., binary_bufs_sub ..⟩
theorem sDense0_fresh : (sDense0 : List (HloOp τ sig (Elt F))).Forall fun op => op.fresh = ∅ :=
  ⟨rfl, rfl, rfl, rfl, rfl, rfl, rfl, rfl, rfl⟩

theorem sPut1_sub : (sPut1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., ternary_bufs_sub ..⟩
theorem sPut1_fresh : (sPut1 : List (HloOp τ sig (Elt F))).Forall fun op => op.fresh = ∅ :=
  ⟨rfl, rfl, rfl, rfl, rfl, rfl, rfl, rfl, rfl⟩

theorem sTake1_sub : (sTake1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem sTake1_fresh : (sTake1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl⟩

theorem sDense1_sub : (sDense1 : List (HloOp τ sig (Elt F))).Forall fun op => op.bufs ⊆ tcRefs τ sig :=
  ⟨binary_bufs_sub .., unary_bufs_sub .., binary_bufs_sub .., unary_bufs_sub .., unary_bufs_sub .., binary_bufs_sub ..,
    nullary_bufs_sub .., unary_bufs_sub .., binary_bufs_sub ..⟩
theorem sDense1_fresh : (sDense1 : List (HloOp τ sig (Elt F))).Forall fun op => op.fresh = ∅ :=
  ⟨rfl, rfl, rfl, rfl, rfl, rfl, rfl, rfl, rfl⟩

theorem sPut2_sub : (sPut2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., ternary_bufs_sub ..⟩
theorem sPut2_fresh : (sPut2 : List (HloOp τ sig (Elt F))).Forall fun op => op.fresh = ∅ :=
  ⟨rfl, rfl, rfl, rfl, rfl, rfl, rfl, rfl, rfl⟩

theorem sTake2_sub : (sTake2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem sTake2_fresh : (sTake2 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl⟩

theorem sDense2_sub : (sDense2 : List (HloOp τ sig (Elt F))).Forall fun op => op.bufs ⊆ tcRefs τ sig :=
  ⟨binary_bufs_sub .., unary_bufs_sub .., binary_bufs_sub .., unary_bufs_sub .., unary_bufs_sub .., binary_bufs_sub ..,
    nullary_bufs_sub .., unary_bufs_sub .., binary_bufs_sub ..⟩
theorem sDense2_fresh : (sDense2 : List (HloOp τ sig (Elt F))).Forall fun op => op.fresh = ∅ :=
  ⟨rfl, rfl, rfl, rfl, rfl, rfl, rfl, rfl, rfl⟩

theorem sPut3_sub : (sPut3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., ternary_bufs_sub ..⟩
theorem sPut3_fresh : (sPut3 : List (HloOp τ sig (Elt F))).Forall fun op => op.fresh = ∅ :=
  ⟨rfl, rfl, rfl, rfl, rfl, rfl, rfl, rfl, rfl⟩

theorem sTake3_sub : (sTake3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem sTake3_fresh : (sTake3 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl⟩

theorem forall_append' {P : HloOp τ sig (Elt F) → Prop} {a b : List (HloOp τ sig (Elt F))} (ha : a.Forall P) (hb : b.Forall P) :
    (a ++ b).Forall P := List.forall_append.mpr ⟨ha, hb⟩

theorem ops_sub : (ops : List (HloOp τ sig (Elt F))).Forall fun op => op.bufs ⊆ tcRefs τ sig :=
  (forall_append' (forall_append' (forall_append' (forall_append' (forall_append' (forall_append' (forall_append' (forall_append' (forall_append' (forall_append' (forall_append' sIdx_sub sPut0_sub) sTake0_sub) sDense0_sub) sPut1_sub) sTake1_sub) sDense1_sub) sPut2_sub) sTake2_sub) sDense2_sub) sPut3_sub) sTake3_sub)

theorem ops_fresh : (ops : List (HloOp τ sig (Elt F))).Forall fun op => op.fresh = ∅ :=
  (forall_append' (forall_append' (forall_append' (forall_append' (forall_append' (forall_append' (forall_append' (forall_append' (forall_append' (forall_append' (forall_append' sIdx_fresh sPut0_fresh) sTake0_fresh) sDense0_fresh) sPut1_fresh) sTake1_fresh) sDense1_fresh) sPut2_fresh) sTake2_fresh) sDense2_fresh) sPut3_fresh) sTake3_fresh)

/-- On every device, for any float values, from any memory with zero counters: every weakly fair execution of @main
    terminates, and every final state has each buffer at the fold of the operations' results over the launch contents. -/
theorem run_raw (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RefRun.Keep.lean ====
/-
  What a stretch of the reference's operations leaves alone: every buffer not among those it writes keeps its
  contents through it. Also the fold over a concatenation, stretch after stretch.
-/
import proofs.«107552_g58299886076360_cont_9to1_m_691_22_alg».proof.Proof.RefRun.Ops

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The contents after two lines run one after the other: the second's fold over the first's. -/
theorem after_append (a b : List (HloOp τ sig (Elt F))) (V : Valuation τ sig (Elt F)) :
    after (a ++ b) V = after b (after a V) := by
  induction a generalizing V with
  | nil => rfl
  | cons op a ih => simp only [List.cons_append, after_cons, ih]

/-- Each operation of a literal line writes one buffer, its result's: that buffer is in the line's list of written
    references, by looking it up. -/
local macro "writes_in_list" : tactic =>
  `(tactic| (simp only [List.Forall]
             (repeat' apply And.intro) <;>
               (simp only [nullary_writes, unary_writes, binary_writes, ternary_writes, Finset.singleton_subset_iff, List.mem_toFinset]
                exact List.mem_map_of_mem (by decide))))

theorem sIdx_writes : (sIdx : List (HloOp τ sig (Elt F))).Forall fun op =>
    op.writes ⊆ (sIdx_W.map (Proc.devRef (τ := τ) .tc)).toFinset := by writes_in_list
/-- A buffer that stretch does not write keeps its contents through it. -/
theorem sIdx_keep (V : Valuation τ sig (Elt F)) (r : Ref sig .tc) (h : r ∉ sIdx_W) :
    after sIdx V (Proc.devRef .tc r) = V (Proc.devRef .tc r) :=
  after_of_writes_sub sIdx V sIdx_writes h

theorem sPut0_writes : (sPut0 : List (HloOp τ sig (Elt F))).Forall fun op =>
    op.writes ⊆ (sPut0_W.map (Proc.devRef (τ := τ) .tc)).toFinset := by writes_in_list
/-- A buffer that stretch does not write keeps its contents through it. -/
theorem sPut0_keep (V : Valuation τ sig (Elt F)) (r : Ref sig .tc) (h : r ∉ sPut0_W) :
    after sPut0 V (Proc.devRef .tc r) = V (Proc.devRef .tc r) :=
  after_of_writes_sub sPut0 V sPut0_writes h

theorem sTake0_writes : (sTake0 : List (HloOp τ sig (Elt F))).Forall fun op =>
    op.writes ⊆ (sTake0_W.map (Proc.devRef (τ := τ) .tc)).toFinset := by writes_in_list
/-- A buffer that stretch does not write keeps its contents through it. -/
theorem sTake0_keep (V : Valuation τ sig (Elt F)) (r : Ref sig .tc) (h : r ∉ sTake0_W) :
    after sTake0 V (Proc.devRef .tc r) = V (Proc.devRef .tc r) :=
  after_of_writes_sub sTake0 V sTake0_writes h

theorem sDense0_writes : (sDense0 : List (HloOp τ sig (Elt F))).Forall fun op =>
    op.writes ⊆ (sDense0_W.map (Proc.devRef (τ := τ) .tc)).toFinset := by writes_in_list
/-- A buffer that stretch does not write keeps its contents through it. -/
theorem sDense0_keep (V : Valuation τ sig (Elt F)) (r : Ref sig .tc) (h : r ∉ sDense0_W) :
    after sDense0 V (Proc.devRef .tc r) = V (Proc.devRef .tc r) :=
  after_of_writes_sub sDense0 V sDense0_writes h

theorem sPut1_writes : (sPut1 : List (HloOp τ sig (Elt F))).Forall fun op =>
    op.writes ⊆ (sPut1_W.map (Proc.devRef (τ := τ) .tc)).toFinset := by writes_in_list
/-- A buffer that stretch does not write keeps its contents through it. -/
theorem sPut1_keep (V : Valuation τ sig (Elt F)) (r : Ref sig .tc) (h : r ∉ sPut1_W) :
    after sPut1 V (Proc.devRef .tc r) = V (Proc.devRef .tc r) :=
  after_of_writes_sub sPut1 V sPut1_writes h

theorem sTake1_writes : (sTake1 : List (HloOp τ sig (Elt F))).Forall fun op =>
    op.writes ⊆ (sTake1_W.map (Proc.devRef (τ := τ) .tc)).toFinset := by writes_in_list
/-- A buffer that stretch does not write keeps its contents through it. -/
theorem sTake1_keep (V : Valuation τ sig (Elt F)) (r : Ref sig .tc) (h : r ∉ sTake1_W) :
    after sTake1 V (Proc.devRef .tc r) = V (Proc.devRef .tc r) :=
  after_of_writes_sub sTake1 V sTake1_writes h

theorem sDense1_writes : (sDense1 : List (HloOp τ sig (Elt F))).Forall fun op =>
    op.writes ⊆ (sDense1_W.map (Proc.devRef (τ := τ) .tc)).toFinset := by writes_in_list
/-- A buffer that stretch does not write keeps its contents through it. -/
theorem sDense1_keep (V : Valuation τ sig (Elt F)) (r : Ref sig .tc) (h : r ∉ sDense1_W) :
    after sDense1 V (Proc.devRef .tc r) = V (Proc.devRef .tc r) :=
  after_of_writes_sub sDense1 V sDense1_writes h

theorem sPut2_writes : (sPut2 : List (HloOp τ sig (Elt F))).Forall fun op =>
    op.writes ⊆ (sPut2_W.map (Proc.devRef (τ := τ) .tc)).toFinset := by writes_in_list
/-- A buffer that stretch does not write keeps its contents through it. -/
theorem sPut2_keep (V : Valuation τ sig (Elt F)) (r : Ref sig .tc) (h : r ∉ sPut2_W) :
    after sPut2 V (Proc.devRef .tc r) = V (Proc.devRef .tc r) :=
  after_of_writes_sub sPut2 V sPut2_writes h

theorem sTake2_writes : (sTake2 : List (HloOp τ sig (Elt F))).Forall fun op =>
    op.writes ⊆ (sTake2_W.map (Proc.devRef (τ := τ) .tc)).toFinset := by writes_in_list
/-- A buffer that stretch does not write keeps its contents through it. -/
theorem sTake2_keep (V : Valuation τ sig (Elt F)) (r : Ref sig .tc) (h : r ∉ sTake2_W) :
    after sTake2 V (Proc.devRef .tc r) = V (Proc.devRef .tc r) :=
  after_of_writes_sub sTake2 V sTake2_writes h

theorem sDense2_writes : (sDense2 : List (HloOp τ sig (Elt F))).Forall fun op =>
    op.writes ⊆ (sDense2_W.map (Proc.devRef (τ := τ) .tc)).toFinset := by writes_in_list
/-- A buffer that stretch does not write keeps its contents through it. -/
theorem sDense2_keep (V : Valuation τ sig (Elt F)) (r : Ref sig .tc) (h : r ∉ sDense2_W) :
    after sDense2 V (Proc.devRef .tc r) = V (Proc.devRef .tc r) :=
  after_of_writes_sub sDense2 V sDense2_writes h

theorem sPut3_writes : (sPut3 : List (HloOp τ sig (Elt F))).Forall fun op =>
    op.writes ⊆ (sPut3_W.map (Proc.devRef (τ := τ) .tc)).toFinset := by writes_in_list
/-- A buffer that stretch does not write keeps its contents through it. -/
theorem sPut3_keep (V : Valuation τ sig (Elt F)) (r : Ref sig .tc) (h : r ∉ sPut3_W) :
    after sPut3 V (Proc.devRef .tc r) = V (Proc.devRef .tc r) :=
  after_of_writes_sub sPut3 V sPut3_writes h

theorem sTake3_writes : (sTake3 : List (HloOp τ sig (Elt F))).Forall fun op =>
    op.writes ⊆ (sTake3_W.map (Proc.devRef (τ := τ) .tc)).toFinset := by writes_in_list
/-- A buffer that stretch does not write keeps its contents through it. -/
theorem sTake3_keep (V : Valuation τ sig (Elt F)) (r : Ref sig .tc) (h : r ∉ sTake3_W) :
    after sTake3 V (Proc.devRef .tc r) = V (Proc.devRef .tc r) :=
  after_of_writes_sub sTake3 V sTake3_writes h

end Cert.ReferenceIdeal.RefRun

end
-- ==== Proof.RefRun.Out.lean ====
/-
  What each stretch of the reference's operations computes, from ANY contents `V` of the device's buffers: the
  buffer a later stretch reads holds the named step of the reference (the put, the take, the dense layer) applied to
  `V` at the buffers the stretch reads. Each is the fold over the stretch's operations read off at one buffer: an
  operation's result at its own buffer is its function's value, at another buffer what was there.
-/
import proofs.«107552_g58299886076360_cont_9to1_m_691_22_alg».proof.Proof.RefRun.Ops
import proofs.«107552_g58299886076360_cont_9to1_m_691_22_alg».proof.Proof.RefTerm

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

-- the gather, the scatter and the reduction are folds over their operands' elements: kept folded, the two
-- sides of each equation below are the same applications of them, and only the typed references' transports are opened
attribute [local irreducible] Host.reduce Host.gather Host.scatter

/-! ## The zero buffer and the column numbers -/

theorem sIdx_v0 (V : Valuation τ sig (Elt F)) :
    after sIdx V (Proc.devRef .tc main_v0) = RefValue.vals0 (F := F) := by
  simp only [sIdx]
  after_results_simp <;> rfl

theorem sIdx_v1 (V : Valuation τ sig (Elt F)) :
    after sIdx V (Proc.devRef .tc main_v1) = RefValue.colsIn (F := F) := by
  simp only [sIdx]
  after_results_simp <;> rfl

theorem sIdx_v4 (V : Valuation τ sig (Elt F)) :
    after sIdx V (Proc.devRef .tc main_v4) = RefValue.colsH1 (F := F) := by
  simp only [sIdx]
  after_results_simp <;> rfl

theorem sIdx_v7 (V : Valuation τ sig (Elt F)) :
    after sIdx V (Proc.devRef .tc main_v7) = RefValue.colsH2 (F := F) := by
  simp only [sIdx]
  after_results_simp <;> rfl

theorem sIdx_v10 (V : Valuation τ sig (Elt F)) :
    after sIdx V (Proc.devRef .tc main_v10) = RefValue.colsOut (F := F) := by
  simp only [sIdx]
  after_results_simp <;> rfl

/-! ## The first layer -/

/-- The put of the inputs: the scatter at the normalised column numbers. -/
theorem sPut0_out (V : Valuation τ sig (Elt F)) :
    after sPut0 V (Proc.devRef .tc main_v17)
      = RefValue.put128 (V (Proc.devRef .tc main_v0)) (V (Proc.devRef .tc main_v1)) (V (Proc.devRef .tc main_arg0)) := by
  simp only [sPut0]
  after_results_simp <;> rfl

set_option maxHeartbeats 1000000 in
/-- The take of columns 0…127: the gather at the normalised column numbers under the in-range mask. -/
theorem sTake0_out (V : Valuation τ sig (Elt F)) :
    after sTake0 V (Proc.devRef .tc main_v18)
      = RefValue.take128 (V (Proc.devRef .tc main_v17)) (V (Proc.devRef .tc main_v1)) := by
  simp only [sTake0]
  after_results_simp <;> rfl

/-- The first dense layer of what was taken. -/
theorem sDense0_out (V : Valuation τ sig (Elt F)) :
    after sDense0 V (Proc.devRef .tc main_v25)
      = RefValue.dense128 (V (Proc.devRef .tc main_v18)) (V (Proc.devRef .tc main_arg1)) (V (Proc.devRef .tc main_arg3)) (V (Proc.devRef .tc main_arg2)) := by
  simp only [sDense0]
  after_results_simp <;> rfl

/-! ## The second layer -/

/-- The put of the first hidden layer. -/
theorem sPut1_out (V : Valuation τ sig (Elt F)) :
    after sPut1 V (Proc.devRef .tc main_v32)
      = RefValue.put128 (V (Proc.devRef .tc main_v17)) (V (Proc.devRef .tc main_v4)) (V (Proc.devRef .tc main_v25)) := by
  simp only [sPut1]
  after_results_simp <;> rfl

set_option maxHeartbeats 1000000 in
/-- The take of columns 128…255. -/
theorem sTake1_out (V : Valuation τ sig (Elt F)) :
    after sTake1 V (Proc.devRef .tc main_v33)
      = RefValue.take128 (V (Proc.devRef .tc main_v32)) (V (Proc.devRef .tc main_v4)) := by
  simp only [sTake1]
  after_results_simp <;> rfl

/-- The second dense layer of what was taken. -/
theorem sDense1_out (V : Valuation τ sig (Elt F)) :
    after sDense1 V (Proc.devRef .tc main_v40)
      = RefValue.dense128 (V (Proc.devRef .tc main_v33)) (V (Proc.devRef .tc main_arg4)) (V (Proc.devRef .tc main_arg6)) (V (Proc.devRef .tc main_arg5)) := by
  simp only [sDense1]
  after_results_simp <;> rfl

/-! ## The output layer -/

/-- The put of the second hidden layer. -/
theorem sPut2_out (V : Valuation τ sig (Elt F)) :
    after sPut2 V (Proc.devRef .tc main_v47)
      = RefValue.put128 (V (Proc.devRef .tc main_v32)) (V (Proc.devRef .tc main_v7)) (V (Proc.devRef .tc main_v40)) := by
  simp only [sPut2]
  after_results_simp <;> rfl

set_option maxHeartbeats 1000000 in
/-- The take of columns 256…383. -/
theorem sTake2_out (V : Valuation τ sig (Elt F)) :
    after sTake2 V (Proc.devRef .tc main_v48)
      = RefValue.take128 (V (Proc.devRef .tc main_v47)) (V (Proc.devRef .tc main_v7)) := by
  simp only [sTake2]
  after_results_simp <;> rfl

/-- The output layer of what was taken. -/
theorem sDense2_out (V : Valuation τ sig (Elt F)) :
    after sDense2 V (Proc.devRef .tc main_v55)
      = RefValue.dense64 (V (Proc.devRef .tc main_v48)) (V (Proc.devRef .tc main_arg7)) (V (Proc.devRef .tc main_arg9)) (V (Proc.devRef .tc main_arg8)) := by
  simp only [sDense2]
  after_results_simp <;> rfl

/-! ## The outputs through the buffer -/

/-- The put of the outputs. -/
theorem sPut3_out (V : Valuation τ sig (Elt F)) :
    after sPut3 V (Proc.devRef .tc main_v62)
      = RefValue.put64 (V (Proc.devRef .tc main_v47)) (V (Proc.devRef .tc main_v10)) (V (Proc.devRef .tc main_v55)) := by
  simp only [sPut3]
  after_results_simp <;> rfl

set_option maxHeartbeats 1000000 in
/-- The take of columns 384…447: the result. -/
theorem sTake3_out (V : Valuation τ sig (Elt F)) :
    after sTake3 V (Proc.devRef .tc main_v63)
      = RefValue.take64 (V (Proc.devRef .tc main_v62)) (V (Proc.devRef .tc main_v10)) := by
  simp only [sTake3]
  after_results_simp <;> rfl

end Cert.ReferenceIdeal.RefRun

end
-- ==== Proof.RefRun.lean ====
/-
  The reference program's run, read back as ONE term of its ten arguments.

  @main is a straight line of 170 host operations (RefRun/Ops.lean), cut into twelve stretches that follow the
  reference's stages. From any contents `V` of the device's buffers, the contents after each stretch are named
  (`X0 V` … `X11 V`); each stretch gives the buffer a later one reads the named step of the reference — the put, the
  take, the dense layer — of what it read (RefRun/Out.lean) and leaves every other buffer alone (RefRun/Keep.lean).
  Chained, the result buffer ends at `RefValue.result` of `V` at the ten arguments, and the arguments, which no
  operation writes, end as they began. `run` states that of every weakly fair execution from the launch memory.
-/
import proofs.«107552_g58299886076360_cont_9to1_m_691_22_alg».proof.Proof.RefRun.Keep
import proofs.«107552_g58299886076360_cont_9to1_m_691_22_alg».proof.Proof.RefRun.Out

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-! ## The contents stretch after stretch -/

/-- The device's buffer contents after the first stretch, from contents `V`; then after each further stretch. -/
def X0 (V : Valuation τ sig (Elt F)) : Valuation τ sig (Elt F) := after sIdx V
def X1 (V : Valuation τ sig (Elt F)) : Valuation τ sig (Elt F) := after sPut0 (X0 V)
def X2 (V : Valuation τ sig (Elt F)) : Valuation τ sig (Elt F) := after sTake0 (X1 V)
def X3 (V : Valuation τ sig (Elt F)) : Valuation τ sig (Elt F) := after sDense0 (X2 V)
def X4 (V : Valuation τ sig (Elt F)) : Valuation τ sig (Elt F) := after sPut1 (X3 V)
def X5 (V : Valuation τ sig (Elt F)) : Valuation τ sig (Elt F) := after sTake1 (X4 V)
def X6 (V : Valuation τ sig (Elt F)) : Valuation τ sig (Elt F) := after sDense1 (X5 V)
def X7 (V : Valuation τ sig (Elt F)) : Valuation τ sig (Elt F) := after sPut2 (X6 V)
def X8 (V : Valuation τ sig (Elt F)) : Valuation τ sig (Elt F) := after sTake2 (X7 V)
def X9 (V : Valuation τ sig (Elt F)) : Valuation τ sig (Elt F) := after sDense2 (X8 V)
def X10 (V : Valuation τ sig (Elt F)) : Valuation τ sig (Elt F) := after sPut3 (X9 V)
def X11 (V : Valuation τ sig (Elt F)) : Valuation τ sig (Elt F) := after sTake3 (X10 V)

/-- The whole line's fold is the last of them. -/
theorem after_ops (V : Valuation τ sig (Elt F)) : after ops V = X11 V := by
  simp only [ops, after_append]
  rfl

/-! ## What no stretch so far has written -/

/-- The buffers written by the first stretch; by the first two; and so on. -/
abbrev C0 : List (Ref sig .tc) := sIdx_W
abbrev C1 : List (Ref sig .tc) := C0 ++ sPut0_W
abbrev C2 : List (Ref sig .tc) := C1 ++ sTake0_W
abbrev C3 : List (Ref sig .tc) := C2 ++ sDense0_W
abbrev C4 : List (Ref sig .tc) := C3 ++ sPut1_W
abbrev C5 : List (Ref sig .tc) := C4 ++ sTake1_W
abbrev C6 : List (Ref sig .tc) := C5 ++ sDense1_W
abbrev C7 : List (Ref sig .tc) := C6 ++ sPut2_W
abbrev C8 : List (Ref sig .tc) := C7 ++ sTake2_W
abbrev C9 : List (Ref sig .tc) := C8 ++ sDense2_W
abbrev C10 : List (Ref sig .tc) := C9 ++ sPut3_W
abbrev C11 : List (Ref sig .tc) := C10 ++ sTake3_W

theorem X0_keep (V : Valuation τ sig (Elt F)) (r : Ref sig .tc) (h : r ∉ C0) : X0 V (Proc.devRef .tc r) = V (Proc.devRef .tc r) := sIdx_keep V r h
theorem X1_keep (V : Valuation τ sig (Elt F)) (r : Ref sig .tc) (h : r ∉ C1) : X1 V (Proc.devRef .tc r) = V (Proc.devRef .tc r) :=
  (sPut0_keep (X0 V) r fun hr => h (List.mem_append_right _ hr)).trans (X0_keep V r fun hr => h (List.mem_append_left _ hr))
theorem X2_keep (V : Valuation τ sig (Elt F)) (r : Ref sig .tc) (h : r ∉ C2) : X2 V (Proc.devRef .tc r) = V (Proc.devRef .tc r) :=
  (sTake0_keep (X1 V) r fun hr => h (List.mem_append_right _ hr)).trans (X1_keep V r fun hr => h (List.mem_append_left _ hr))
theorem X3_keep (V : Valuation τ sig (Elt F)) (r : Ref sig .tc) (h : r ∉ C3) : X3 V (Proc.devRef .tc r) = V (Proc.devRef .tc r) :=
  (sDense0_keep (X2 V) r fun hr => h (List.mem_append_right _ hr)).trans (X2_keep V r fun hr => h (List.mem_append_left _ hr))
theorem X4_keep (V : Valuation τ sig (Elt F)) (r : Ref sig .tc) (h : r ∉ C4) : X4 V (Proc.devRef .tc r) = V (Proc.devRef .tc r) :=
  (sPut1_keep (X3 V) r fun hr => h (List.mem_append_right _ hr)).trans (X3_keep V r fun hr => h (List.mem_append_left _ hr))
theorem X5_keep (V : Valuation τ sig (Elt F)) (r : Ref sig .tc) (h : r ∉ C5) : X5 V (Proc.devRef .tc r) = V (Proc.devRef .tc r) :=
  (sTake1_keep (X4 V) r fun hr => h (List.mem_append_right _ hr)).trans (X4_keep V r fun hr => h (List.mem_append_left _ hr))
theorem X6_keep (V : Valuation τ sig (Elt F)) (r : Ref sig .tc) (h : r ∉ C6) : X6 V (Proc.devRef .tc r) = V (Proc.devRef .tc r) :=
  (sDense1_keep (X5 V) r fun hr => h (List.mem_append_right _ hr)).trans (X5_keep V r fun hr => h (List.mem_append_left _ hr))
theorem X7_keep (V : Valuation τ sig (Elt F)) (r : Ref sig .tc) (h : r ∉ C7) : X7 V (Proc.devRef .tc r) = V (Proc.devRef .tc r) :=
  (sPut2_keep (X6 V) r fun hr => h (List.mem_append_right _ hr)).trans (X6_keep V r fun hr => h (List.mem_append_left _ hr))
theorem X8_keep (V : Valuation τ sig (Elt F)) (r : Ref sig .tc) (h : r ∉ C8) : X8 V (Proc.devRef .tc r) = V (Proc.devRef .tc r) :=
  (sTake2_keep (X7 V) r fun hr => h (List.mem_append_right _ hr)).trans (X7_keep V r fun hr => h (List.mem_append_left _ hr))
theorem X9_keep (V : Valuation τ sig (Elt F)) (r : Ref sig .tc) (h : r ∉ C9) : X9 V (Proc.devRef .tc r) = V (Proc.devRef .tc r) :=
  (sDense2_keep (X8 V) r fun hr => h (List.mem_append_right _ hr)).trans (X8_keep V r fun hr => h (List.mem_append_left _ hr))
theorem X10_keep (V : Valuation τ sig (Elt F)) (r : Ref sig .tc) (h : r ∉ C10) : X10 V (Proc.devRef .tc r) = V (Proc.devRef .tc r) :=
  (sPut3_keep (X9 V) r fun hr => h (List.mem_append_right _ hr)).trans (X9_keep V r fun hr => h (List.mem_append_left _ hr))
theorem X11_keep (V : Valuation τ sig (Elt F)) (r : Ref sig .tc) (h : r ∉ C11) : X11 V (Proc.devRef .tc r) = V (Proc.devRef .tc r) :=
  (sTake3_keep (X10 V) r fun hr => h (List.mem_append_right _ hr)).trans (X10_keep V r fun hr => h (List.mem_append_left _ hr))

/-! ## The stages

Each buffer a later stretch reads, at the named stage of the reference over `V` at the ten arguments: the stretch that writes it
gives it that stage of what it read, and every stretch after leaves it alone. -/

theorem X0_v0 (V : Valuation τ sig (Elt F)) : X0 V (Proc.devRef .tc main_v0) = RefValue.vals0 (F := F) := sIdx_v0 V
theorem X0_v1 (V : Valuation τ sig (Elt F)) : X0 V (Proc.devRef .tc main_v1) = RefValue.colsIn (F := F) := sIdx_v1 V
theorem X0_v4 (V : Valuation τ sig (Elt F)) : X0 V (Proc.devRef .tc main_v4) = RefValue.colsH1 (F := F) := sIdx_v4 V
theorem X0_v7 (V : Valuation τ sig (Elt F)) : X0 V (Proc.devRef .tc main_v7) = RefValue.colsH2 (F := F) := sIdx_v7 V
theorem X0_v10 (V : Valuation τ sig (Elt F)) : X0 V (Proc.devRef .tc main_v10) = RefValue.colsOut (F := F) := sIdx_v10 V

-- the inputs put
theorem X1_v17 (V : Valuation τ sig (Elt F)) : X1 V (Proc.devRef .tc main_v17) = RefValue.valsIn (V (Proc.devRef .tc main_arg0)) :=
  (sPut0_out (X0 V)).trans (by rw [X0_v0, X0_v1, X0_keep V main_arg0 (by decide)] <;> rfl)
theorem X1_v1 (V : Valuation τ sig (Elt F)) : X1 V (Proc.devRef .tc main_v1) = RefValue.colsIn (F := F) :=
  (sPut0_keep (X0 V) main_v1 (by decide)).trans (X0_v1 V)
theorem X1_v4 (V : Valuation τ sig (Elt F)) : X1 V (Proc.devRef .tc main_v4) = RefValue.colsH1 (F := F) :=
  (sPut0_keep (X0 V) main_v4 (by decide)).trans (X0_v4 V)
theorem X1_v7 (V : Valuation τ sig (Elt F)) : X1 V (Proc.devRef .tc main_v7) = RefValue.colsH2 (F := F) :=
  (sPut0_keep (X0 V) main_v7 (by decide)).trans (X0_v7 V)
theorem X1_v10 (V : Valuation τ sig (Elt F)) : X1 V (Proc.devRef .tc main_v10) = RefValue.colsOut (F := F) :=
  (sPut0_keep (X0 V) main_v10 (by decide)).trans (X0_v10 V)

-- and taken back
theorem X2_v18 (V : Valuation τ sig (Elt F)) : X2 V (Proc.devRef .tc main_v18) = RefValue.take128 (RefValue.valsIn (V (Proc.devRef .tc main_arg0))) RefValue.colsIn :=
  (sTake0_out (X1 V)).trans (by rw [X1_v17, X1_v1])
theorem X2_v17 (V : Valuation τ sig (Elt F)) : X2 V (Proc.devRef .tc main_v17) = RefValue.valsIn (V (Proc.devRef .tc main_arg0)) :=
  (sTake0_keep (X1 V) main_v17 (by decide)).trans (X1_v17 V)
theorem X2_v4 (V : Valuation τ sig (Elt F)) : X2 V (Proc.devRef .tc main_v4) = RefValue.colsH1 (F := F) :=
  (sTake0_keep (X1 V) main_v4 (by decide)).trans (X1_v4 V)
theorem X2_v7 (V : Valuation τ sig (Elt F)) : X2 V (Proc.devRef .tc main_v7) = RefValue.colsH2 (F := F) :=
  (sTake0_keep (X1 V) main_v7 (by decide)).trans (X1_v7 V)
theorem X2_v10 (V : Valuation τ sig (Elt F)) : X2 V (Proc.devRef .tc main_v10) = RefValue.colsOut (F := F) :=
  (sTake0_keep (X1 V) main_v10 (by decide)).trans (X1_v10 V)

-- the first hidden layer
theorem X3_v25 (V : Valuation τ sig (Elt F)) : X3 V (Proc.devRef .tc main_v25) = RefValue.hidden1 (V (Proc.devRef .tc main_arg0)) (V (Proc.devRef .tc main_arg1)) (V (Proc.devRef .tc main_arg3)) (V (Proc.devRef .tc main_arg2)) :=
  (sDense0_out (X2 V)).trans (by rw [X2_v18, X2_keep V main_arg1 (by decide), X2_keep V main_arg3 (by decide), X2_keep V main_arg2 (by decide)] <;> rfl)
theorem X3_v17 (V : Valuation τ sig (Elt F)) : X3 V (Proc.devRef .tc main_v17) = RefValue.valsIn (V (Proc.devRef .tc main_arg0)) :=
  (sDense0_keep (X2 V) main_v17 (by decide)).trans (X2_v17 V)
theorem X3_v4 (V : Valuation τ sig (Elt F)) : X3 V (Proc.devRef .tc main_v4) = RefValue.colsH1 (F := F) :=
  (sDense0_keep (X2 V) main_v4 (by decide)).trans (X2_v4 V)
theorem X3_v7 (V : Valuation τ sig (Elt F)) : X3 V (Proc.devRef .tc main_v7) = RefValue.colsH2 (F := F) :=
  (sDense0_keep (X2 V) main_v7 (by decide)).trans (X2_v7 V)
theorem X3_v10 (V : Valuation τ sig (Elt F)) : X3 V (Proc.devRef .tc main_v10) = RefValue.colsOut (F := F) :=
  (sDense0_keep (X2 V) main_v10 (by decide)).trans (X2_v10 V)

-- put
theorem X4_v32 (V : Valuation τ sig (Elt F)) : X4 V (Proc.devRef .tc main_v32) = RefValue.valsH1 (V (Proc.devRef .tc main_arg0)) (V (Proc.devRef .tc main_arg1)) (V (Proc.devRef .tc main_arg3)) (V (Proc.devRef .tc main_arg2)) :=
  (sPut1_out (X3 V)).trans (by rw [X3_v17, X3_v4, X3_v25] <;> rfl)
theorem X4_v4 (V : Valuation τ sig (Elt F)) : X4 V (Proc.devRef .tc main_v4) = RefValue.colsH1 (F := F) :=
  (sPut1_keep (X3 V) main_v4 (by decide)).trans (X3_v4 V)
theorem X4_v7 (V : Valuation τ sig (Elt F)) : X4 V (Proc.devRef .tc main_v7) = RefValue.colsH2 (F := F) :=
  (sPut1_keep (X3 V) main_v7 (by decide)).trans (X3_v7 V)
theorem X4_v10 (V : Valuation τ sig (Elt F)) : X4 V (Proc.devRef .tc main_v10) = RefValue.colsOut (F := F) :=
  (sPut1_keep (X3 V) main_v10 (by decide)).trans (X3_v10 V)

-- and taken back
theorem X5_v33 (V : Valuation τ sig (Elt F)) : X5 V (Proc.devRef .tc main_v33) = RefValue.take128 (RefValue.valsH1 (V (Proc.devRef .tc main_arg0)) (V (Proc.devRef .tc main_arg1)) (V (Proc.devRef .tc main_arg3)) (V (Proc.devRef .tc main_arg2))) RefValue.colsH1 :=
  (sTake1_out (X4 V)).trans (by rw [X4_v32, X4_v4])
theorem X5_v32 (V : Valuation τ sig (Elt F)) : X5 V (Proc.devRef .tc main_v32) = RefValue.valsH1 (V (Proc.devRef .tc main_arg0)) (V (Proc.devRef .tc main_arg1)) (V (Proc.devRef .tc main_arg3)) (V (Proc.devRef .tc main_arg2)) :=
  (sTake1_keep (X4 V) main_v32 (by decide)).trans (X4_v32 V)
theorem X5_v7 (V : Valuation τ sig (Elt F)) : X5 V (Proc.devRef .tc main_v7) = RefValue.colsH2 (F := F) :=
  (sTake1_keep (X4 V) main_v7 (by decide)).trans (X4_v7 V)
theorem X5_v10 (V : Valuation τ sig (Elt F)) : X5 V (Proc.devRef .tc main_v10) = RefValue.colsOut (F := F) :=
  (sTake1_keep (X4 V) main_v10 (by decide)).trans (X4_v10 V)

-- the second hidden layer
theorem X6_v40 (V : Valuation τ sig (Elt F)) : X6 V (Proc.devRef .tc main_v40) = RefValue.hidden2 (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5)) :=
  (sDense1_out (X5 V)).trans (by rw [X5_v33, X5_keep V main_arg4 (by decide), X5_keep V main_arg6 (by decide), X5_keep V main_arg5 (by decide)] <;> rfl)
theorem X6_v32 (V : Valuation τ sig (Elt F)) : X6 V (Proc.devRef .tc main_v32) = RefValue.valsH1 (V (Proc.devRef .tc main_arg0)) (V (Proc.devRef .tc main_arg1)) (V (Proc.devRef .tc main_arg3)) (V (Proc.devRef .tc main_arg2)) :=
  (sDense1_keep (X5 V) main_v32 (by decide)).trans (X5_v32 V)
theorem X6_v7 (V : Valuation τ sig (Elt F)) : X6 V (Proc.devRef .tc main_v7) = RefValue.colsH2 (F := F) :=
  (sDense1_keep (X5 V) main_v7 (by decide)).trans (X5_v7 V)
theorem X6_v10 (V : Valuation τ sig (Elt F)) : X6 V (Proc.devRef .tc main_v10) = RefValue.colsOut (F := F) :=
  (sDense1_keep (X5 V) main_v10 (by decide)).trans (X5_v10 V)

-- put
theorem X7_v47 (V : Valuation τ sig (Elt F)) : X7 V (Proc.devRef .tc main_v47) = RefValue.valsH2 (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5)) :=
  (sPut2_out (X6 V)).trans (by rw [X6_v32, X6_v7, X6_v40] <;> rfl)
theorem X7_v7 (V : Valuation τ sig (Elt F)) : X7 V (Proc.devRef .tc main_v7) = RefValue.colsH2 (F := F) :=
  (sPut2_keep (X6 V) main_v7 (by decide)).trans (X6_v7 V)
theorem X7_v10 (V : Valuation τ sig (Elt F)) : X7 V (Proc.devRef .tc main_v10) = RefValue.colsOut (F := F) :=
  (sPut2_keep (X6 V) main_v10 (by decide)).trans (X6_v10 V)

-- and taken back
theorem X8_v48 (V : Valuation τ sig (Elt F)) : X8 V (Proc.devRef .tc main_v48) = RefValue.take128 (RefValue.valsH2 (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5))) RefValue.colsH2 :=
  (sTake2_out (X7 V)).trans (by rw [X7_v47, X7_v7])
theorem X8_v47 (V : Valuation τ sig (Elt F)) : X8 V (Proc.devRef .tc main_v47) = RefValue.valsH2 (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5)) :=
  (sTake2_keep (X7 V) main_v47 (by decide)).trans (X7_v47 V)
theorem X8_v10 (V : Valuation τ sig (Elt F)) : X8 V (Proc.devRef .tc main_v10) = RefValue.colsOut (F := F) :=
  (sTake2_keep (X7 V) main_v10 (by decide)).trans (X7_v10 V)

-- the outputs
theorem X9_v55 (V : Valuation τ sig (Elt F)) : X9 V (Proc.devRef .tc main_v55) = RefValue.outputs (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5)) (V (Proc.devRef .tc main_arg7)) (V (Proc.devRef .tc main_arg9)) (V (Proc.devRef .tc main_arg8)) :=
  (sDense2_out (X8 V)).trans (by rw [X8_v48, X8_keep V main_arg7 (by decide), X8_keep V main_arg9 (by decide), X8_keep V main_arg8 (by decide)] <;> rfl)
theorem X9_v47 (V : Valuation τ sig (Elt F)) : X9 V (Proc.devRef .tc main_v47) = RefValue.valsH2 (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5)) :=
  (sDense2_keep (X8 V) main_v47 (by decide)).trans (X8_v47 V)
theorem X9_v10 (V : Valuation τ sig (Elt F)) : X9 V (Proc.devRef .tc main_v10) = RefValue.colsOut (F := F) :=
  (sDense2_keep (X8 V) main_v10 (by decide)).trans (X8_v10 V)

-- put
theorem X10_v62 (V : Valuation τ sig (Elt F)) : X10 V (Proc.devRef .tc main_v62) = RefValue.put64 (RefValue.valsH2 (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5))) RefValue.colsOut (RefValue.outputs (V (Proc.devRef .tc main_arg0)) (V (Proc.devRef .tc main_arg1)) (V (Proc.devRef .tc main_arg3)) (V (Proc.devRef .tc main_arg2)) (V (Proc.devRef .tc main_arg4)) (V (Proc.devRef .tc main_arg6)) (V (Proc.devRef .tc main_arg5)) (V (Proc.devRef .tc main_arg7)) (V (Proc.devRef .tc main_arg9)) (V (Proc.devRef .tc main_arg8))) :=
  (sPut3_out (X9 V)).trans (by rw [X9_v47, X9_v10, X9_v55])
theorem X10_v10 (V : Valuation τ sig (Elt F)) : X10 V (Proc.devRef .tc main_v10) = RefValue.colsOut (F := F) :=
  (sPut3_keep (X9 V) main_v10 (by decide)).trans (X9_v10 V)

-- and taken back: the result
theorem X11_v63 (V : Valuation τ sig (Elt F)) : X11 V (Proc.devRef .tc main_v63) = RefValue.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (sTake3_out (X10 V)).trans (by rw [X10_v62, X10_v10] <;> rfl)

/-! ## The whole line -/

/-- After the whole line the result buffer holds the reference's result, as one term of `V` at the ten arguments. -/
theorem after_ops_v63 (V : Valuation τ sig (Elt F)) :
    after ops V (Proc.devRef .tc main_v63) = RefValue.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops]
  exact X11_v63 V

/-- No operation writes an argument: after the whole line each holds what it held. -/
theorem after_ops_keep (V : Valuation τ sig (Elt F)) (r : Ref sig .tc) (h : r ∉ C11) :
    after ops V (Proc.devRef .tc r) = V (Proc.devRef .tc r) := by
  rw [after_ops]
  exact X11_keep V r h

/-- On every device, for any float values, from any memory with zero counters: every weakly fair execution of @main
    terminates with the result buffer at the reference's result of the arguments' launch contents, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v63)
          = RefValue.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v63).trans (after_ops_v63 _),
      (h c main_arg0).trans (after_ops_keep _ main_arg0 (by decide)),
      (h c main_arg1).trans (after_ops_keep _ main_arg1 (by decide)),
      (h c main_arg2).trans (after_ops_keep _ main_arg2 (by decide)),
      (h c main_arg3).trans (after_ops_keep _ main_arg3 (by decide)),
      (h c main_arg4).trans (after_ops_keep _ main_arg4 (by decide)),
      (h c main_arg5).trans (after_ops_keep _ main_arg5 (by decide)),
      (h c main_arg6).trans (after_ops_keep _ main_arg6 (by decide)),
      (h c main_arg7).trans (after_ops_keep _ main_arg7 (by decide)),
      (h c main_arg8).trans (after_ops_keep _ main_arg8 (by decide)),
      (h c main_arg9).trans (after_ops_keep _ main_arg9 (by decide))⟩)
    (run_raw m ρ)

end Cert.ReferenceIdeal.RefRun

end
-- ==== Proof.lean ====
/-
  A fused three-layer masked perceptron against its reference through a buffer of node activations.

  Both programs compute, for each of the 16384 rows `x` of the inputs,
      o = ramp (ramp (ramp (x · (W¹ ∘ M¹)ᵀ + b¹) · (W² ∘ M²)ᵀ + b²) · (W³ ∘ M³)ᵀ + b³),   ramp v = max v 0,
  over the extended reals.

  The kernel does it in one region of two grid points, 8192 rows each: its casts to the 16-bit format are
  the identity on the extended reals, its three matrix products into a zero accumulator are plain sums over
  the contracted axis, and the two blocks it writes back tile the result.

  The reference keeps one buffer of 16384 × 448 node activations: it puts the inputs into columns 0…127,
  takes them back, applies a layer, puts the layer's output into the next range of columns, takes it back, and
  so on, and returns the last range. Every take reads exactly the columns the put before it wrote, and all the
  column numbers are inside the buffer, so each take returns what was put and the buffer disappears from the
  result: three dense layers applied to the inputs. The host's product with the transposed masked weights is
  the same sum, term by term and in the same order of factors, as the kernel's product contracting both
  operands' second axis. No law of the extended reals beyond this rearrangement of indices is used, and the
  precondition (finite inputs) is not needed.
-/
import proofs.«107552_g58299886076360_cont_9to1_m_691_22_alg».proof.Defs
import proofs.«107552_g58299886076360_cont_9to1_m_691_22_alg».proof.Proof.Gen.Kernel
import proofs.«107552_g58299886076360_cont_9to1_m_691_22_alg».proof.Proof.Gen.Kernel.Skeleton
import proofs.«107552_g58299886076360_cont_9to1_m_691_22_alg».proof.Proof.Gen.Kernel.Launch
import proofs.«107552_g58299886076360_cont_9to1_m_691_22_alg».proof.Proof.Gen.Kernel.Points
import proofs.«107552_g58299886076360_cont_9to1_m_691_22_alg».proof.Proof.Gen.Kernel.Frame
import proofs.«107552_g58299886076360_cont_9to1_m_691_22_alg».proof.Proof.Gen.KernelIdeal
import proofs.«107552_g58299886076360_cont_9to1_m_691_22_alg».proof.Proof.Gen.KernelIdeal.Skeleton
import proofs.«107552_g58299886076360_cont_9to1_m_691_22_alg».proof.Proof.Gen.KernelIdeal.Launch
import proofs.«107552_g58299886076360_cont_9to1_m_691_22_alg».proof.Proof.Gen.KernelIdeal.Points
import proofs.«107552_g58299886076360_cont_9to1_m_691_22_alg».proof.Proof.Gen.KernelIdeal.Frame
import proofs.«107552_g58299886076360_cont_9to1_m_691_22_alg».proof.Proof.Gen.KernelIdeal.Value
import proofs.«107552_g58299886076360_cont_9to1_m_691_22_alg».proof.Proof.Gen.ReferenceIdeal
import proofs.«107552_g58299886076360_cont_9to1_m_691_22_alg».proof.Proof.Gen.Pre_finite_inputs
import proofs.«107552_g58299886076360_cont_9to1_m_691_22_alg».proof.Proof.KernelArray
import proofs.«107552_g58299886076360_cont_9to1_m_691_22_alg».proof.Proof.RefLayers
import proofs.«107552_g58299886076360_cont_9to1_m_691_22_alg».proof.Proof.TakePut
import proofs.«107552_g58299886076360_cont_9to1_m_691_22_alg».proof.Proof.RefRun
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation of the kernel. -/
theorem preserves : Cert.preserves_Kernel_KernelIdeal := trivial

/-- From memories that agree on the ten arguments both programs end with the three layers applied to every row
    of the inputs: the kernel by its blocks, the reference once its buffer of activations has collapsed. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [h0, h1, h2, h3, h4, h5, h6, h7, h8, h9, Cert.ReferenceIdeal.RefValue.result_eq_layers,
    Cert.ReferenceIdeal.RefValue.layers_eq_rows]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
